-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S40x100 : Shape := ⟨2, ![40, 100]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x100 : Shape := ⟨2, ![800000, 100]⟩
abbrev S100 : Shape := ⟨1, ![100]⟩
abbrev S1x100 : Shape := ⟨2, ![1, 100]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S40x100 : S_.BroadcastsInDim S40x100 (![] : Fin 0 → Fin S40x100.rank)
  reducesTo_S40x100_S_d0_1 : S40x100.ReducesTo [0, 1] S_
  bcast_S_S40 : S_.BroadcastsInDim S40 (![] : Fin 0 → Fin S40.rank)
  reducesTo_S40_S_d0 : S40.ReducesTo [0] S_
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  reducesTo_S50000x100_S100_d0 : S50000x100.ReducesTo [0] S100
  bcast_S_S100 : S_.BroadcastsInDim S100 (![] : Fin 0 → Fin S100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  reducesTo_S100_S_d0 : S100.ReducesTo [0] S_
  scatter_S50000_S800000x1_S800000_n_0_0_1_wf : ScatterDims.WF S50000 S800000x1 S800000 [] [0] [0] 1
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1

variable [Facts]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def fn_part4 {F : FTy → Type} [FloatOps F] (main_v13 : IVec S_ 1) (main_v72 : FVec F S100 .f32) (main_cst_20 : FVec F S_ .f32) : IVec S_ 1 :=
  let main_v73 : FVec F S100 .f32 := broadcastInDim S100 ![] bcast_S_S100 main_cst_20
  let main_v74 : FVec F S100 .f32 := Host.divf main_v72 main_v73
  let main_cst_21 : FVec F S_ .f32 := constant S_ .f32 0x00000000#32
  let main_v75 : FVec F S100 .f32 := broadcastInDim S100 ![] bcast_S_S100 main_cst_21
  let main_v76 : IVec S100 1 := cmpf .ogt main_v74 main_v75
  let main_c_22 : IVec S_ 1 := constantI S_ 1 1#1
  let main_v77 : IVec S_ 1 := (fun x v => Host.reduce IntOp.andi x v reducesTo_S100_S_d0 h_S_) main_v76 main_c_22
  let main_v78 : IVec S_ 1 := andi main_v13 main_v77
  main_v78

def fn_part3 {F : FTy → Type} [FloatOps F] (main_arg3 : IVec S800000 32) (main_arg4 : IVec S800000 32) (main_v13 : IVec S_ 1) (main_v22 : FVec F S50000x1 .f32) (main_v52 : FVec F S50000x100 .f32) (main_v54 : IVec S800000 1) : IVec S_ 1 :=
  let main_c_15 : IVec S_ 32 := constantI S_ 32 50000#32
  let main_v55 : IVec S800000 32 := broadcastInDim S800000 ![] bcast_S_S800000 main_c_15
  let main_v56 : IVec S800000 32 := addi main_arg3 main_v55
  let main_v57 : IVec S800000 32 := select main_v54 main_v56 main_arg3
  let main_v58 : IVec S800000x1 32 := broadcastInDim S800000x1 ![0] bcast_S800000_S800000x1_0 main_v57
  let main_v59 : FVec F S800000x100 .f32 := (fun x i => Host.gather gather_S50000x100_S800000x1_S800000x100_1_0_n_n_0_1_1100 x i) main_v52 main_v58
  let main_cst_16 : FVec F S_ .f32 := constant S_ .f32 0x00000000#32
  let main_v60 : FVec F S50000x100 .f32 := broadcastInDim S50000x100 ![] bcast_S_S50000x100 main_cst_16
  let main_v61 : IVec S800000x1 32 := broadcastInDim S800000x1 ![0] bcast_S800000_S800000x1_0 main_arg4
  let main_v62 : FVec F S50000x100 .f32 := (fun x i u => Host.scatterAdd scatter_S50000x100_S800000x1_S800000x100_1_0_0_1 x i u) main_v60 main_v61 main_v59
  let main_v63 : FVec F S50000x100 .f32 := broadcastInDim S50000x100 ![0, 1] bcast_S50000x1_S50000x100_0_1 main_v22
  let main_v64 : FVec F S50000x100 .f32 := mulf main_v62 main_v63
  let main_cst_17 : FVec F S_ .f32 := constant S_ .f32 0x00000000#32
  let main_v65 : FVec F S100 .f32 := (fun x v => Host.reduceAdd x v reducesTo_S50000x100_S100_d0 h_S_) main_v64 main_cst_17
  let main_cst_18 : FVec F S_ .f32 := constant S_ .f32 0x47435000#32
  let main_v66 : FVec F S100 .f32 := broadcastInDim S100 ![] bcast_S_S100 main_cst_18
  let main_v67 : FVec F S100 .f32 := Host.divf main_v65 main_v66
  let main_v68 : FVec F S1x100 .f32 := broadcastInDim S1x100 ![1] bcast_S100_S1x100_1 main_v67
  let main_v69 : FVec F S50000x100 .f32 := broadcastInDim S50000x100 ![0, 1] bcast_S1x100_S50000x100_0_1 main_v68
  let main_v70 : FVec F S50000x100 .f32 := subf main_v64 main_v69
  let main_v71 : FVec F S50000x100 .f32 := mulf main_v70 main_v70
  let main_cst_19 : FVec F S_ .f32 := constant S_ .f32 0x00000000#32
  let main_v72 : FVec F S100 .f32 := (fun x v => Host.reduceAdd x v reducesTo_S50000x100_S100_d0 h_S_) main_v71 main_cst_19
  let main_cst_20 : FVec F S_ .f32 := constant S_ .f32 0x47434F00#32
  fn_part4 (F := F) main_v13 main_v72 main_cst_20

def fn_part2 {F : FTy → Type} [FloatOps F] (main_arg3 : IVec S800000 32) (main_arg4 : IVec S800000 32) (main_v13 : IVec S_ 1) (main_v22 : FVec F S50000x1 .f32) (main_v34 : FVec F S50000x100 .f32) : IVec S_ 1 :=
  let main_v35 : FVec F S50000x100 .f32 := broadcastInDim S50000x100 ![0, 1] bcast_S50000x1_S50000x100_0_1 main_v22
  let main_v36 : FVec F S50000x100 .f32 := mulf main_v34 main_v35
  let main_v37 : FVec F S50000x100 .f32 := broadcastInDim S50000x100 ![0, 1] bcast_S50000x1_S50000x100_0_1 main_v22
  let main_v38 : FVec F S50000x100 .f32 := mulf main_v36 main_v37
  let main_c_11 : IVec S_ 32 := constantI S_ 32 0#32
  let main_v39 : IVec S800000 32 := broadcastInDim S800000 ![] bcast_S_S800000 main_c_11
  let main_v40 : IVec S800000 1 := cmpi .slt main_arg3 main_v39
  let main_c_12 : IVec S_ 32 := constantI S_ 32 50000#32
  let main_v41 : IVec S800000 32 := broadcastInDim S800000 ![] bcast_S_S800000 main_c_12
  let main_v42 : IVec S800000 32 := addi main_arg3 main_v41
  let main_v43 : IVec S800000 32 := select main_v40 main_v42 main_arg3
  let main_v44 : IVec S800000x1 32 := broadcastInDim S800000x1 ![0] bcast_S800000_S800000x1_0 main_v43
  let main_v45 : FVec F S800000x100 .f32 := (fun x i => Host.gather gather_S50000x100_S800000x1_S800000x100_1_0_n_n_0_1_1100 x i) main_v38 main_v44
  let main_cst_13 : FVec F S_ .f32 := constant S_ .f32 0x00000000#32
  let main_v46 : FVec F S50000x100 .f32 := broadcastInDim S50000x100 ![] bcast_S_S50000x100 main_cst_13
  let main_v47 : IVec S800000x1 32 := broadcastInDim S800000x1 ![0] bcast_S800000_S800000x1_0 main_arg4
  let main_v48 : FVec F S50000x100 .f32 := (fun x i u => Host.scatterAdd scatter_S50000x100_S800000x1_S800000x100_1_0_0_1 x i u) main_v46 main_v47 main_v45
  let main_v49 : FVec F S50000x100 .f32 := broadcastInDim S50000x100 ![0, 1] bcast_S50000x1_S50000x100_0_1 main_v22
  let main_v50 : FVec F S50000x100 .f32 := mulf main_v48 main_v49
  let main_v51 : FVec F S50000x100 .f32 := broadcastInDim S50000x100 ![0, 1] bcast_S50000x1_S50000x100_0_1 main_v22
  let main_v52 : FVec F S50000x100 .f32 := mulf main_v50 main_v51
  let main_c_14 : IVec S_ 32 := constantI S_ 32 0#32
  let main_v53 : IVec S800000 32 := broadcastInDim S800000 ![] bcast_S_S800000 main_c_14
  let main_v54 : IVec S800000 1 := cmpi .slt main_arg3 main_v53
  fn_part3 (F := F) main_arg3 main_arg4 main_v13 main_v22 main_v52 main_v54

def fn_part1 {F : FTy → Type} [FloatOps F] (main_arg0 : FVec F S50000x100 .f32) (main_arg3 : IVec S800000 32) (main_arg4 : IVec S800000 32) (main_v13 : IVec S_ 1) (main_v14 : FVec F S800000 .f32) (main_v15 : FVec F S50000 .f32) : IVec S_ 1 :=
  let main_v16 : IVec S800000x1 32 := broadcastInDim S800000x1 ![0] bcast_S800000_S800000x1_0 main_arg4
  let main_v17 : FVec F S50000 .f32 := (fun x i u => Host.scatterAdd scatter_S50000_S800000x1_S800000_n_0_0_1 x i u) main_v15 main_v16 main_v14
  let main_cst_6 : FVec F S_ .f32 := constant S_ .f32 0x3F800000#32
  let main_v18 : FVec F S50000 .f32 := broadcastInDim S50000 ![] bcast_S_S50000 main_cst_6
  let main_v19 : FVec F S50000 .f32 := maximumf main_v17 main_v18
  let main_v20 : FVec F S50000x1 .f32 := broadcastInDim S50000x1 ![0] bcast_S50000_S50000x1_0 main_v19
  let main_cst_7 : FVec F S_ .f32 := constant S_ .f32 0xBF000000#32
  let main_v21 : FVec F S50000x1 .f32 := broadcastInDim S50000x1 ![] bcast_S_S50000x1 main_cst_7
  let main_v22 : FVec F S50000x1 .f32 := Host.powf main_v20 main_v21
  let main_v23 : FVec F S50000x100 .f32 := broadcastInDim S50000x100 ![0, 1] bcast_S50000x1_S50000x100_0_1 main_v22
  let main_v24 : FVec F S50000x100 .f32 := mulf main_arg0 main_v23
  let main_c_8 : IVec S_ 32 := constantI S_ 32 0#32
  let main_v25 : IVec S800000 32 := broadcastInDim S800000 ![] bcast_S_S800000 main_c_8
  let main_v26 : IVec S800000 1 := cmpi .slt main_arg3 main_v25
  let main_c_9 : IVec S_ 32 := constantI S_ 32 50000#32
  let main_v27 : IVec S800000 32 := broadcastInDim S800000 ![] bcast_S_S800000 main_c_9
  let main_v28 : IVec S800000 32 := addi main_arg3 main_v27
  let main_v29 : IVec S800000 32 := select main_v26 main_v28 main_arg3
  let main_v30 : IVec S800000x1 32 := broadcastInDim S800000x1 ![0] bcast_S800000_S800000x1_0 main_v29
  let main_v31 : FVec F S800000x100 .f32 := (fun x i => Host.gather gather_S50000x100_S800000x1_S800000x100_1_0_n_n_0_1_1100 x i) main_v24 main_v30
  let main_cst_10 : FVec F S_ .f32 := constant S_ .f32 0x00000000#32
  let main_v32 : FVec F S50000x100 .f32 := broadcastInDim S50000x100 ![] bcast_S_S50000x100 main_cst_10
  let main_v33 : IVec S800000x1 32 := broadcastInDim S800000x1 ![0] bcast_S800000_S800000x1_0 main_arg4
  let main_v34 : FVec F S50000x100 .f32 := (fun x i u => Host.scatterAdd scatter_S50000x100_S800000x1_S800000x100_1_0_0_1 x i u) main_v32 main_v33 main_v31
  fn_part2 (F := F) main_arg3 main_arg4 main_v13 main_v22 main_v34

def fn {F : FTy → Type} [FloatOps F] (main_arg0 : FVec F S50000x100 .f32) (main_arg1 : FVec F S40x100 .f32) (main_arg2 : FVec F S40 .f32) (main_arg3 : IVec S800000 32) (main_arg4 : IVec S800000 32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S40x100 .f32 := Host.absf main_arg1
  let main_cst_0 : FVec F S_ .f32 := constant S_ .f32 0x7F800000#32
  let main_v5 : FVec F S40x100 .f32 := broadcastInDim S40x100 ![] bcast_S_S40x100 main_cst_0
  let main_v6 : IVec S40x100 1 := cmpf .olt main_v4 main_v5
  let main_c_1 : IVec S_ 1 := constantI S_ 1 1#1
  let main_v7 : IVec S_ 1 := (fun x v => Host.reduce IntOp.andi x v reducesTo_S40x100_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_cst_4 : FVec F S_ .f32 := constant S_ .f32 0x3F800000#32
  let main_v14 : FVec F S800000 .f32 := broadcastInDim S800000 ![] bcast_S_S800000 main_cst_4
  let main_cst_5 : FVec F S_ .f32 := constant S_ .f32 0x00000000#32
  let main_v15 : FVec F S50000 .f32 := broadcastInDim S50000 ![] bcast_S_S50000 main_cst_5
  fn_part1 (F := F) main_arg0 main_arg3 main_arg4 main_v13 main_v14 main_v15
-- ==== Kernel.lean ====
abbrev S50000x100 : Shape := ⟨2, ![50000, 100]⟩
abbrev S40x100 : Shape := ⟨2, ![40, 100]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x100 : Shape := ⟨2, ![800000, 100]⟩
abbrev S1x100 : Shape := ⟨2, ![1, 100]⟩
abbrev S5000x100 : Shape := ⟨2, ![5000, 100]⟩
abbrev S100 : Shape := ⟨1, ![100]⟩
abbrev S100x40 : Shape := ⟨2, ![100, 40]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 89
  | .vmem => 12
  | .smem => 0
  | _ => 0

abbrev bufTy : (tb : Table) → Fin (tcTables nBuf tb) → BufTy
  | .hbm, ⟨0, _⟩ => ⟨S50000x100, .f32⟩
  | .hbm, ⟨1, _⟩ => ⟨S40x100, .f32⟩
  | .hbm, ⟨2, _⟩ => ⟨S40, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S50000x1, .f32⟩
  | .hbm, ⟨15, _⟩ => ⟨S_, .f32⟩
  | .hbm, ⟨16, _⟩ => ⟨S50000x1, .f32⟩
  | .hbm, ⟨17, _⟩ => ⟨S50000x1, .f32⟩
  | .hbm, ⟨18, _⟩ => ⟨S50000x100, .f32⟩
  | .hbm, ⟨19, _⟩ => ⟨S50000x100, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x100, .f32⟩
  | .hbm, ⟨29, _⟩ => ⟨S_, .f32⟩
  | .hbm, ⟨30, _⟩ => ⟨S50000x100, .f32⟩
  | .hbm, ⟨31, _⟩ => ⟨S800000x1, .i32⟩
  | .hbm, ⟨32, _⟩ => ⟨S50000x100, .f32⟩
  | .hbm, ⟨33, _⟩ => ⟨S50000x100, .f32⟩
  | .hbm, ⟨34, _⟩ => ⟨S50000x100, .f32⟩
  | .hbm, ⟨35, _⟩ => ⟨S50000x100, .f32⟩
  | .hbm, ⟨36, _⟩ => ⟨S50000x100, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x100, .f32⟩
  | .hbm, ⟨46, _⟩ => ⟨S_, .f32⟩
  | .hbm, ⟨47, _⟩ => ⟨S50000x100, .f32⟩
  | .hbm, ⟨48, _⟩ => ⟨S800000x1, .i32⟩
  | .hbm, ⟨49, _⟩ => ⟨S50000x100, .f32⟩
  | .hbm, ⟨50, _⟩ => ⟨S50000x100, .f32⟩
  | .hbm, ⟨51, _⟩ => ⟨S50000x100, .f32⟩
  | .hbm, ⟨52, _⟩ => ⟨S50000x100, .f32⟩
  | .hbm, ⟨53, _⟩ => ⟨S50000x100, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x100, .f32⟩
  | .hbm, ⟨63, _⟩ => ⟨S_, .f32⟩
  | .hbm, ⟨64, _⟩ => ⟨S50000x100, .f32⟩
  | .hbm, ⟨65, _⟩ => ⟨S800000x1, .i32⟩
  | .hbm, ⟨66, _⟩ => ⟨S50000x100, .f32⟩
  | .hbm, ⟨67, _⟩ => ⟨S50000x100, .f32⟩
  | .hbm, ⟨68, _⟩ => ⟨S50000x100, .f32⟩
  | .hbm, ⟨69, _⟩ => ⟨S1x100, .f32⟩
  | .hbm, ⟨70, _⟩ => ⟨S1x100, .f32⟩
  | .hbm, ⟨71, _⟩ => ⟨S_, .f32⟩
  | .hbm, ⟨72, _⟩ => ⟨S1x100, .f32⟩
  | .hbm, ⟨73, _⟩ => ⟨S1x100, .f32⟩
  | .hbm, ⟨74, _⟩ => ⟨S_, .f32⟩
  | .hbm, ⟨75, _⟩ => ⟨S1x100, .f32⟩
  | .hbm, ⟨76, _⟩ => ⟨S1x100, .f32⟩
  | .hbm, ⟨77, _⟩ => ⟨S1x100, .f32⟩
  | .hbm, ⟨78, _⟩ => ⟨S1x100, .f32⟩
  | .hbm, ⟨79, _⟩ => ⟨S_, .f32⟩
  | .hbm, ⟨80, _⟩ => ⟨S1x100, .f32⟩
  | .hbm, ⟨81, _⟩ => ⟨S1x100, .f32⟩
  | .hbm, ⟨82, _⟩ => ⟨S1x100, .f32⟩
  | .hbm, ⟨83, _⟩ => ⟨S_, .f32⟩
  | .hbm, ⟨84, _⟩ => ⟨S1x100, .f32⟩
  | .hbm, ⟨85, _⟩ => ⟨S1x100, .f32⟩
  | .hbm, ⟨86, _⟩ => ⟨S100x40, .f32⟩
  | .hbm, ⟨87, _⟩ => ⟨S1x40, .f32⟩
  | .hbm, ⟨88, _⟩ => ⟨S50000x40, .f32⟩
  | .local _ .vmem, ⟨0, _⟩ => ⟨S5000x100, .f32⟩
  | .local _ .vmem, ⟨1, _⟩ => ⟨S5000x100, .f32⟩
  | .local _ .vmem, ⟨2, _⟩ => ⟨S1x100, .f32⟩
  | .local _ .vmem, ⟨3, _⟩ => ⟨S1x100, .f32⟩
  | .local _ .vmem, ⟨4, _⟩ => ⟨S5000x100, .f32⟩
  | .local _ .vmem, ⟨5, _⟩ => ⟨S5000x100, .f32⟩
  | .local _ .vmem, ⟨6, _⟩ => ⟨S1x100, .f32⟩
  | .local _ .vmem, ⟨7, _⟩ => ⟨S1x100, .f32⟩
  | .local _ .vmem, ⟨8, _⟩ => ⟨S100x40, .f32⟩
  | .local _ .vmem, ⟨9, _⟩ => ⟨S1x40, .f32⟩
  | .local _ .vmem, ⟨10, _⟩ => ⟨S5000x40, .f32⟩
  | .local _ .vmem, ⟨11, _⟩ => ⟨S5000x40, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51_0 : Ref sig .tc := ⟨.hbm, 69, rfl⟩
abbrev main_v51_1 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  bcast_S_S50000x100 : S_.BroadcastsInDim S50000x100 (![] : Fin 0 → Fin S50000x100.rank)
  inb_S1x100_S1x100_0_0 : ∀ a, (![0, 0] : Fin 2 → Nat) a + S1x100.size a ≤ S1x100.size a
  h_S1x100 : 0 < S1x100.numel
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  shapeCasts_S1x100_S1x100 : S1x100.ShapeCasts S1x100
  reduces_S5000x100_S100 : S5000x100.Reduces [0] S100
  shapeCasts_S100_S1x100 : S100.ShapeCasts S1x100
  bcast_S_S1x100 : S_.BroadcastsInDim S1x100 (![] : Fin 0 → Fin S1x100.rank)
  transposes_S40x100_S100x40_1_0 : S40x100.Transposes [1, 0] S100x40
  shapeCasts_S40_S1x40 : S40.ShapeCasts S1x40
  broadcasts_S1x100_S5000x100 : S1x100.Broadcasts S5000x100
  bitsLt_bf16_f32 : FTy.bits .bf16 < FTy.bits .f32
  inb_S100x40_S100x40_0_0 : ∀ a, (![0, 0] : Fin 2 → Nat) a + S100x40.size a ≤ S100x40.size a
  h_S100x40 : 0 < S100x40.numel
  shapeCasts_S100x40_S100x40 : S100x40.ShapeCasts S100x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x40_S5000x40_1_0_0_1_n_n_wf : DotDims.WF S5000x100 S100x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100.size a ≤ S1x100.size a
  hwx0_1 : ∀ i : grid0.Coords, EltTy.bits .f32 = 32 ∨ (Rect.block (s := S1x100) S1x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x100.size a ≤ S1x100.size a
  hwx1_1 : ∀ i : grid1.Coords, EltTy.bits .f32 = 32 ∨ (Rect.block (s := S1x100) S1x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100.size a ≤ S1x100.size a
  hwx1_2 : ∀ i : grid1.Coords, EltTy.bits .f32 = 32 ∨ (Rect.block (s := S1x100) S1x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x40.size a ≤ S100x40.size a
  hwx1_3 : ∀ i : grid1.Coords, EltTy.bits .f32 = 32 ∨ (Rect.block (s := S100x40) S100x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x40_S5000x40_1_0_0_1_n_n : DotDims S5000x100 S100x40 S5000x40 where
  lhsContracting := [1]
  rhsContracting := [0]
  lhsNonContracting := [0]
  rhsNonContracting := [1]
  lhsBatch := []
  rhsBatch := []
  wf := dot_S5000x100_S100x40_S5000x40_1_0_0_1_n_n_wf

abbrev win0_0 : Pipeline.Window sig grid0 :=
  Pipeline.Window.ofSpec (Memref.whole main_v50) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51_0) S1x100.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51_1) S1x100.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S100x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x100 : Shape := ⟨2, ![50000, 100]⟩
abbrev S40x100 : Shape := ⟨2, ![40, 100]⟩
abbrev S40 : Shape := ⟨1, ![40]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x100 : Shape := ⟨2, ![800000, 100]⟩
abbrev S100 : Shape := ⟨1, ![100]⟩
abbrev S1x100 : Shape := ⟨2, ![1, 100]⟩
abbrev S100x40 : Shape := ⟨2, ![100, 40]⟩
abbrev S50000x40 : Shape := ⟨2, ![50000, 40]⟩
abbrev S1x40 : Shape := ⟨2, ![1, 40]⟩

abbrev nBuf : Space → Nat
  | .hbm => 109
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S40x100, .f32⟩
  | .hbm, ⟨2, _⟩ => ⟨S40, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S50000x1, .f32⟩
  | .hbm, ⟨15, _⟩ => ⟨S_, .f32⟩
  | .hbm, ⟨16, _⟩ => ⟨S50000x1, .f32⟩
  | .hbm, ⟨17, _⟩ => ⟨S50000x1, .f32⟩
  | .hbm, ⟨18, _⟩ => ⟨S50000x100, .f32⟩
  | .hbm, ⟨19, _⟩ => ⟨S50000x100, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x100, .f32⟩
  | .hbm, ⟨29, _⟩ => ⟨S_, .f32⟩
  | .hbm, ⟨30, _⟩ => ⟨S50000x100, .f32⟩
  | .hbm, ⟨31, _⟩ => ⟨S800000x1, .i32⟩
  | .hbm, ⟨32, _⟩ => ⟨S50000x100, .f32⟩
  | .hbm, ⟨33, _⟩ => ⟨S50000x100, .f32⟩
  | .hbm, ⟨34, _⟩ => ⟨S50000x100, .f32⟩
  | .hbm, ⟨35, _⟩ => ⟨S50000x100, .f32⟩
  | .hbm, ⟨36, _⟩ => ⟨S50000x100, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x100, .f32⟩
  | .hbm, ⟨46, _⟩ => ⟨S_, .f32⟩
  | .hbm, ⟨47, _⟩ => ⟨S50000x100, .f32⟩
  | .hbm, ⟨48, _⟩ => ⟨S800000x1, .i32⟩
  | .hbm, ⟨49, _⟩ => ⟨S50000x100, .f32⟩
  | .hbm, ⟨50, _⟩ => ⟨S50000x100, .f32⟩
  | .hbm, ⟨51, _⟩ => ⟨S50000x100, .f32⟩
  | .hbm, ⟨52, _⟩ => ⟨S50000x100, .f32⟩
  | .hbm, ⟨53, _⟩ => ⟨S50000x100, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x100, .f32⟩
  | .hbm, ⟨63, _⟩ => ⟨S_, .f32⟩
  | .hbm, ⟨64, _⟩ => ⟨S50000x100, .f32⟩
  | .hbm, ⟨65, _⟩ => ⟨S800000x1, .i32⟩
  | .hbm, ⟨66, _⟩ => ⟨S50000x100, .f32⟩
  | .hbm, ⟨67, _⟩ => ⟨S50000x100, .f32⟩
  | .hbm, ⟨68, _⟩ => ⟨S50000x100, .f32⟩
  | .hbm, ⟨69, _⟩ => ⟨S_, .f32⟩
  | .hbm, ⟨70, _⟩ => ⟨S100, .f32⟩
  | .hbm, ⟨71, _⟩ => ⟨S_, .f32⟩
  | .hbm, ⟨72, _⟩ => ⟨S100, .f32⟩
  | .hbm, ⟨73, _⟩ => ⟨S100, .f32⟩
  | .hbm, ⟨74, _⟩ => ⟨S1x100, .f32⟩
  | .hbm, ⟨75, _⟩ => ⟨S50000x100, .f32⟩
  | .hbm, ⟨76, _⟩ => ⟨S50000x100, .f32⟩
  | .hbm, ⟨77, _⟩ => ⟨S_, .i32⟩
  | .hbm, ⟨78, _⟩ => ⟨S_, .f32⟩
  | .hbm, ⟨79, _⟩ => ⟨S100, .f32⟩
  | .hbm, ⟨80, _⟩ => ⟨S1x100, .f32⟩
  | .hbm, ⟨81, _⟩ => ⟨S_, .f32⟩
  | .hbm, ⟨82, _⟩ => ⟨S1x100, .f32⟩
  | .hbm, ⟨83, _⟩ => ⟨S1x100, .f32⟩
  | .hbm, ⟨84, _⟩ => ⟨S50000x100, .f32⟩
  | .hbm, ⟨85, _⟩ => ⟨S50000x100, .f32⟩
  | .hbm, ⟨86, _⟩ => ⟨S50000x100, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S100, .f32⟩
  | .hbm, ⟨92, _⟩ => ⟨S100, .f32⟩
  | .hbm, ⟨93, _⟩ => ⟨S100, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S100, .f32⟩
  | .hbm, ⟨99, _⟩ => ⟨S100, .f32⟩
  | .hbm, ⟨100, _⟩ => ⟨S100, .f32⟩
  | .hbm, ⟨101, _⟩ => ⟨S1x100, .f32⟩
  | .hbm, ⟨102, _⟩ => ⟨S50000x100, .f32⟩
  | .hbm, ⟨103, _⟩ => ⟨S50000x100, .f32⟩
  | .hbm, ⟨104, _⟩ => ⟨S100x40, .f32⟩
  | .hbm, ⟨105, _⟩ => ⟨S50000x40, .f32⟩
  | .hbm, ⟨106, _⟩ => ⟨S1x40, .f32⟩
  | .hbm, ⟨107, _⟩ => ⟨S50000x40, .f32⟩
  | .hbm, ⟨108, _⟩ => ⟨S50000x40, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_13 : Ref sig .tc := ⟨.hbm, 77, rfl⟩
abbrev main_call0_call0_cst : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_call0_cst_0 : Ref sig .tc := ⟨.hbm, 81, rfl⟩
abbrev main_call0_call0_v2 : Ref sig .tc := ⟨.hbm, 82, rfl⟩
abbrev main_call0_call0_v3 : Ref sig .tc := ⟨.hbm, 83, rfl⟩
abbrev main_call0_call0_v4 : Ref sig .tc := ⟨.hbm, 84, rfl⟩
abbrev main_call0_call0_v5 : Ref sig .tc := ⟨.hbm, 85, rfl⟩
abbrev main_call0_call0_v6 : Ref sig .tc := ⟨.hbm, 86, rfl⟩
abbrev main_call0_call0_v7 : Ref sig .tc := ⟨.hbm, 87, rfl⟩
abbrev main_call0_call0_cst_1 : Ref sig .tc := ⟨.hbm, 88, rfl⟩
abbrev main_call0_call0_v8 : Ref sig .tc := ⟨.hbm, 89, rfl⟩
abbrev main_call0_call0_cst_2 : Ref sig .tc := ⟨.hbm, 90, rfl⟩
abbrev main_call0_call0_v9 : Ref sig .tc := ⟨.hbm, 91, rfl⟩
abbrev main_call0_call0_v10 : Ref sig .tc := ⟨.hbm, 92, rfl⟩
abbrev main_call0_call0_v11 : Ref sig .tc := ⟨.hbm, 93, rfl⟩
abbrev main_call0_call0_cst_3 : Ref sig .tc := ⟨.hbm, 94, rfl⟩
abbrev main_call0_call0_v12 : Ref sig .tc := ⟨.hbm, 95, rfl⟩
abbrev main_call0_call0_cst_4 : Ref sig .tc := ⟨.hbm, 96, rfl⟩
abbrev main_call0_call0_call0_v0 : Ref sig .tc := ⟨.hbm, 97, rfl⟩
abbrev main_call0_call0_call0_v1 : Ref sig .tc := ⟨.hbm, 98, rfl⟩
abbrev main_call0_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  bcast_S_S50000x100 : S_.BroadcastsInDim S50000x100 (![] : Fin 0 → Fin S50000x100.rank)
  reducesTo_S50000x100_S100_d0 : S50000x100.ReducesTo [0] S100
  h_S_ : 0 < S_.numel
  bcast_S_S100 : S_.BroadcastsInDim S100 (![] : Fin 0 → Fin S100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S1x100 : S_.BroadcastsInDim S1x100 (![] : Fin 0 → Fin S1x100.rank)
  transposes_S40x100_S100x40_1_0 : S40x100.Transposes [1, 0] S100x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x40_S50000x40_1_0_0_1_n_n_wf : DotDims.WF S50000x100 S100x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x40_S50000x40_1_0_0_1_n_n : DotDims S50000x100 S100x40 S50000x40 where
  lhsContracting := [1]
  rhsContracting := [0]
  lhsNonContracting := [0]
  rhsNonContracting := [1]
  lhsBatch := []
  rhsBatch := []
  wf := dot_S50000x100_S100x40_S50000x40_1_0_0_1_n_n_wf

class Facts : Prop extends Facts₀ where

variable [Facts]
-- ==== Proof.KernelTerms.lean ====
/-
  The host side of the idealized kernel program as pure terms: the propagated array h (operations
  %0 … %50: the in-degree of every node by a scatter-add of ones, its power -1/2 as a column, and
  three hops "scale the rows, gather the rows at the edge sources, scatter-add them at the edge
  destinations, scale the rows"), and the four small arrays the second region reads beside h:
  the column mean, the inverse of the column standard deviation, the weight matrix transposed
  and the bias as a row (operations %52 … %64).  Each definition is the program's own operations
  composed, with the same dimension records and side conditions the program's text carries.
-/
import proofs.«112541_j12695923327569_1_alg».proof.Proof.Gen.KernelIdeal

noncomputable section

namespace Cert.KernelIdeal.HandRun

open Idealize.ShloMosaic
open Cert.KernelIdeal.Facts₀

variable {F : FTy → Type} [FloatOps F]

/-- The in-degree of every node (a scatter-add of ones at the edge destinations over zeros), at least one,
    as a column, to the power -1/2: operations %0 … %8. -/
def dinv (a4 : IVec S800000 32) : FVec F S50000x1 .f32 :=
  let cst : FVec F S_ .f32 := constant (F := F) S_ .f32 0x3F800000#32
  let v0 : FVec F S800000 .f32 := broadcastInDim S800000 ![] bcast_S_S800000 cst
  let cst_0 : FVec F S_ .f32 := constant (F := F) S_ .f32 0x00000000#32
  let v1 : FVec F S50000 .f32 := broadcastInDim S50000 ![] bcast_S_S50000 cst_0
  let v2 : IVec S800000x1 32 := broadcastInDim S800000x1 ![0] bcast_S800000_S800000x1_0 a4
  let v3 : FVec F S50000 .f32 := Host.scatterAdd scatter_S50000_S800000x1_S800000_n_0_0_1 v1 v2 v0
  let cst_1 : FVec F S_ .f32 := constant (F := F) S_ .f32 0x3F800000#32
  let v4 : FVec F S50000 .f32 := broadcastInDim S50000 ![] bcast_S_S50000 cst_1
  let v5 : FVec F S50000 .f32 := maximumf v3 v4
  let v6 : FVec F S50000x1 .f32 := broadcastInDim S50000x1 ![0] bcast_S50000_S50000x1_0 v5
  let cst_2 : FVec F S_ .f32 := constant (F := F) S_ .f32 0xBF000000#32
  let v7 : FVec F S50000x1 .f32 := broadcastInDim S50000x1 ![] bcast_S_S50000x1 cst_2
  let v8 : FVec F S50000x1 .f32 := Host.powf v6 v7
  v8

/-- The edge sources as gather indices: a negative index wraps by the row count 50000
    (operations %11 … %16, and again %25 … %30, %39 … %44), as a column. -/
def srcIdx (a3 : IVec S800000 32) : IVec S800000x1 32 :=
  let c : IVec S_ 32 := constantI S_ 32 0#32
  let v11 : IVec S800000 32 := broadcastInDim S800000 ![] bcast_S_S800000 c
  let v12 : IVec S800000 1 := cmpi .slt a3 v11
  let c_3 : IVec S_ 32 := constantI S_ 32 50000#32
  let v13 : IVec S800000 32 := broadcastInDim S800000 ![] bcast_S_S800000 c_3
  let v14 : IVec S800000 32 := addi a3 v13
  let v15 : IVec S800000 32 := select v12 v14 a3
  let v16 : IVec S800000x1 32 := broadcastInDim S800000x1 ![0] bcast_S800000_S800000x1_0 v15
  v16

/-- One hop: scale row i of x by deg(i)^(-1/2), gather the rows at the edge sources, scatter-add them at
    the edge destinations over zeros, scale row i again (operations %9, %10, %17 … %22 for the first hop;
    %23, %24, %31 … %36 and %37, %38, %45 … %50 for the other two). -/
def hop (a3 a4 : IVec S800000 32) (x : FVec F S50000x100 .f32) : FVec F S50000x100 .f32 :=
  let v9 : FVec F S50000x100 .f32 := broadcastInDim S50000x100 ![0, 1] bcast_S50000x1_S50000x100_0_1 (dinv (F := F) a4)
  let v10 : FVec F S50000x100 .f32 := mulf x v9
  let v17 : FVec F S800000x100 .f32 := Host.gather gather_S50000x100_S800000x1_S800000x100_1_0_n_n_0_1_1100 v10 (srcIdx a3)
  let cst_4 : FVec F S_ .f32 := constant (F := F) S_ .f32 0x00000000#32
  let v18 : FVec F S50000x100 .f32 := broadcastInDim S50000x100 ![] bcast_S_S50000x100 cst_4
  let v19 : IVec S800000x1 32 := broadcastInDim S800000x1 ![0] bcast_S800000_S800000x1_0 a4
  let v20 : FVec F S50000x100 .f32 := Host.scatterAdd scatter_S50000x100_S800000x1_S800000x100_1_0_0_1 v18 v19 v17
  let v21 : FVec F S50000x100 .f32 := broadcastInDim S50000x100 ![0, 1] bcast_S50000x1_S50000x100_0_1 (dinv (F := F) a4)
  let v22 : FVec F S50000x100 .f32 := mulf v20 v21
  v22

/-- The propagated array h: three hops from the feature array (operations %0 … %50). -/
def prop (a0 : FVec F S50000x100 .f32) (a3 a4 : IVec S800000 32) : FVec F S50000x100 .f32 :=
  hop a3 a4 (hop a3 a4 (hop a3 a4 a0))

/-- %53: the column mean, the column sum divided by the row count 50000. -/
def mean (S : FVec F S1x100 .f32) : FVec F S1x100 .f32 :=
  Host.divf S (broadcastInDim S1x100 ![] bcast_S_S1x100 (constant (F := F) S_ .f32 0x47435000#32))

/-- %62: the inverse standard deviation 1 / sqrt ((SQ - 50000 * mean * mean) / 49999). -/
def invstd (S SQ : FVec F S1x100 .f32) : FVec F S1x100 .f32 :=
  Host.divf (broadcastInDim S1x100 ![] bcast_S_S1x100 (constant (F := F) S_ .f32 0x3F800000#32))
    (Host.sqrt (Host.divf
      (subf SQ (mulf (mulf (broadcastInDim S1x100 ![] bcast_S_S1x100 (constant (F := F) S_ .f32 0x47435000#32)) (mean S)) (mean S)))
      (broadcastInDim S1x100 ![] bcast_S_S1x100 (constant (F := F) S_ .f32 0x47434F00#32))))

/-- %63: the weight matrix transposed. -/
def wT (a1 : FVec F S40x100 .f32) : FVec F S100x40 .f32 :=
  transpose S100x40 [1, 0] a1 transposes_S40x100_S100x40_1_0

/-- %64: the bias as a row. -/
def bRow (a2 : FVec F S40 .f32) : FVec F S1x40 .f32 :=
  shapeCast S1x40 a2 shapeCasts_S40_S1x40

end Cert.KernelIdeal.HandRun

end
-- ==== Proof.KernelRun.lean ====
/-
  The idealized kernel program's run with its result named.

  @main is four segments: the host operations %0 … %50 (three hops of degree-normalised
  gather / scatter-add, giving the propagated array h), the reduction region (column sums and
  column sums of squares of h), the host operations %52 … %64 (mean, variance, inverse standard
  deviation, the transposed weight, the bias as a row) and the normalise-and-multiply region.
  The buffer contents at every boundary between two segments are a fold from the launch memory;
  the last boundary's contents at the result buffer are what region 1's write-backs leave in
  its output array.  This module reads that one buffer off the run, beside the five argument
  buffers, which no segment writes; and it reads the five arrays region 1 is entered with — the
  propagated array h, the column mean, the inverse column standard deviation, the transposed
  weight and the bias row — back through the fold, as the host operations' pure terms of the
  argument arrays and of the two arrays region 0 leaves (the column sums and sums of squares).
-/
import proofs.«112541_j12695923327569_1_alg».proof.Proof.KernelTerms
import proofs.«112541_j12695923327569_1_alg».proof.Proof.Gen.KernelIdeal.Frame
import Idealize.ShloMosaic.PureOps.Ideal

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window of region 1 (its window 5) stages the program's result buffer. -/
theorem arrRef_result : Pipeline.arrRef spec1 5 = main_v65 := rfl

/-- The last boundary's contents at the result buffer: what region 1's write-backs leave in its
    output array, the fold of the ten row tiles' blocks. -/
theorem W4_result (c : Dev nD) :
    Gen.W4 m ρ c (Proc.devRef .tc main_v65) = (Gen.dat1 (Gen.V3 m ρ) c).arrAt 5 cfg1.N :=
  Gen.W4_arr m ρ c 5

-- the launch theorem's implicit arguments are found by unifying its conclusion with this one, which takes
-- unfolding plain definitions in a metavariable's type
set_option backward.isDefEq.respectTransparency.types false in
/-- Every weakly fair execution of @main from a memory with zero counters terminates without a fault,
    and in the final state the result buffer holds region 1's output array after its last grid point,
    while the five argument buffers hold what they held at launch.  The final state is read against the
    last thread state (every unscoped buffer at the last boundary's contents); the result buffer is one of
    those buffers. -/
theorem run_result : θ_run defs (onTc (τ := τ) (main (F := F))) ⟨m, fun _ => 0, ρ⟩ (fun r => ∀ c : Dev nD,
      r.2.mem ((c.tc : Thread nD τ).loc main_v65) = (Gen.dat1 (Gen.V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W4 m ρ c) s')
      isplitl [Hh] <;> iassumption)
    (hQ := fun s h c =>
      ⟨(h c _ (Gen.mem_uc main_v65 (by decide))).trans (W4_result m ρ c),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c)⟩)

end Run

/-! ## The arrays the two regions are entered with, at the exact-real instance

Region 0 is entered with h in `main_v50`; it writes only its two accumulators, so region 1 finds h
unchanged.  Between the regions the host divides the column sums by the row count, forms
(sumsq - n * mean * mean) / (n - 1), takes one over its square root, transposes the weight and
reshapes the bias; no other buffer region 1 reads is touched. -/

section Host

variable (m : (ℓ : Loc nD τ sig) → Buf (Elt Ideal) ℓ) (ρ : Dev nD → PrngReg)

/-- Region 0 finds h, the three hops applied to the feature array, in its input array: the fold of
    the operations %0 … %50 over the launch memory, read at the last one's result buffer. -/
theorem V1_h (c : Dev nD) :
    (Gen.V1 m ρ c main_v50 : S50000x100.Idx → EReal)
      = prop (F := Ideal) (m ((c.tc : Thread nD τ).loc main_arg0)) (m ((c.tc : Thread nD τ).loc main_arg3))
          (m ((c.tc : Thread nD τ).loc main_arg4)) := by
  show StableHlo.after Gen.hostOps0 (Gen.W0 m ρ c) (Proc.devRef .tc main_v50) = _
  after_results_simp
  rfl

/-- Region 1 finds the same h: region 0 only reads that array (an input window is never written back),
    and none of the operations %52 … %64 writes it. -/
theorem V3_h (c : Dev nD) : Gen.V3 m ρ c main_v50 = Gen.V1 m ρ c main_v50 := by
  show StableHlo.after Gen.hostOps1 (Gen.W2 m ρ c) (Proc.devRef .tc main_v50) = _
  after_results
  exact (Gen.W2_arr m ρ c 0).trans ((Gen.dat0 (Gen.V1 m ρ) c).arrAt_in 0 rfl cfg0.N)

/-- Region 1's first input is h as a term of the argument arrays. -/
theorem V3_prop (c : Dev nD) :
    (Gen.V3 m ρ c main_v50 : S50000x100.Idx → EReal)
      = prop (F := Ideal) (m ((c.tc : Thread nD τ).loc main_arg0)) (m ((c.tc : Thread nD τ).loc main_arg3))
          (m ((c.tc : Thread nD τ).loc main_arg4)) :=
  (V3_h m ρ c).trans (V1_h m ρ c)

/-- Region 1's second input is the column mean: region 0's first result array (the column sums after the
    last grid point) divided by the row count. -/
theorem V3_mean (c : Dev nD) :
    (Gen.V3 m ρ c main_v53 : S1x100.Idx → EReal) = mean (F := Ideal) ((Gen.dat0 (Gen.V1 m ρ) c).arrAt 1 cfg0.N) := by
  show StableHlo.after Gen.hostOps1 (Gen.W2 m ρ c) (Proc.devRef .tc main_v53) = _
  after_results
  rw [show Gen.W2 m ρ c (Proc.devRef .tc main_v51_0) = _ from Gen.W2_arr m ρ c 1]
  rfl

/-- Region 1's third input is one over the square root of (sumsq - n * mean * mean) / (n - 1), of region 0's
    two result arrays. -/
theorem V3_invstd (c : Dev nD) :
    (Gen.V3 m ρ c main_v62 : S1x100.Idx → EReal)
      = invstd (F := Ideal) ((Gen.dat0 (Gen.V1 m ρ) c).arrAt 1 cfg0.N) ((Gen.dat0 (Gen.V1 m ρ) c).arrAt 2 cfg0.N) := by
  show StableHlo.after Gen.hostOps1 (Gen.W2 m ρ c) (Proc.devRef .tc main_v62) = _
  after_results_simp
  rw [show Gen.W2 m ρ c (Proc.devRef .tc main_v51_0) = _ from Gen.W2_arr m ρ c 1,
    show Gen.W2 m ρ c (Proc.devRef .tc main_v51_1) = _ from Gen.W2_arr m ρ c 2]
  rfl

/-- Region 1's fourth input is the weight matrix transposed; the weight argument is written by no
    operation and by no region. -/
theorem V3_wT (c : Dev nD) :
    (Gen.V3 m ρ c main_v63 : S100x40.Idx → EReal) = wT (F := Ideal) (m ((c.tc : Thread nD τ).loc main_arg1)) := by
  show StableHlo.after Gen.hostOps1 (Gen.W2 m ρ c) (Proc.devRef .tc main_v63) = _
  after_results
  rw [show Gen.W2 m ρ c (Proc.devRef .tc main_arg1) = Gen.W1 m ρ c (Proc.devRef .tc main_arg1)
    from Gen.W2_of_ne m ρ c main_arg1 (by decide)]
  show transpose S100x40 [1, 0] (StableHlo.after Gen.hostOps0 (Gen.W0 m ρ c) (Proc.devRef .tc main_arg1)) _ = _
  after_results
  rfl

/-- Region 1's fifth input is the bias as a row; the bias argument is written by no operation and by
    no region. -/
theorem V3_bRow (c : Dev nD) :
    (Gen.V3 m ρ c main_v64 : S1x40.Idx → EReal) = bRow (F := Ideal) (m ((c.tc : Thread nD τ).loc main_arg2)) := by
  show StableHlo.after Gen.hostOps1 (Gen.W2 m ρ c) (Proc.devRef .tc main_v64) = _
  after_results
  rw [show Gen.W2 m ρ c (Proc.devRef .tc main_arg2) = Gen.W1 m ρ c (Proc.devRef .tc main_arg2)
    from Gen.W2_of_ne m ρ c main_arg2 (by decide)]
  show (fun i => shapeCast S1x40 (StableHlo.after Gen.hostOps0 (Gen.W0 m ρ c) (Proc.devRef .tc main_arg2)) _ i) = _
  after_results
  rfl

end Host

end Cert.KernelIdeal.HandRun

end
-- ==== Proof.RefTerms.lean ====
/- The idealized reference's value, as two pure terms of its argument arrays.
   `prop` is the array h : f32[50000,100] after three hops of degree-normalised neighbourhood averaging
   (gather along the edge sources, scatter-add at the edge targets, each hop scaled by deg^(-1/2) on both sides);
   `tail` is the column standardisation of h (mean over the 50000 rows, unbiased variance with divisor 50000 - 1,
   square root), the product with the transposed weight matrix and the added bias. Each is the chain of the
   program's own operations, one `have` per operation, named after the value it defines. -/
import proofs.«112541_j12695923327569_1_alg».proof.Proof.Gen.ReferenceIdeal

noncomputable section

namespace Cert.ReferenceIdeal.HandRun

open Cert.ReferenceIdeal Cert.ReferenceIdeal.Gen Idealize.ShloMosaic

variable {F : FTy → Type} [FloatOps F]

/-- The array h: operations %0 … %50 composed, from the features `a0`, the edge sources `a3` and the edge
    targets `a4`. `v3` counts the edges arriving at each node, `v8` is max(count, 1)^(-1/2); each hop gathers the
    scaled rows at the (wrapped) sources, adds them up at the targets and scales again. -/
def prop (a0 : FVec F S50000x100 .f32) (a3 a4 : IVec S800000 32) : FVec F S50000x100 .f32 :=
  have cst : FVec F S_ .f32 := constant S_ .f32 0x3F800000#32
  have v0 : FVec F S800000 .f32 := broadcastInDim S800000 ![] bcast_S_S800000 cst
  have cst_0 : FVec F S_ .f32 := constant S_ .f32 0x00000000#32
  have v1 : FVec F S50000 .f32 := broadcastInDim S50000 ![] bcast_S_S50000 cst_0
  have v2 : IVec S800000x1 32 := broadcastInDim S800000x1 ![0] bcast_S800000_S800000x1_0 a4
  have v3 : FVec F S50000 .f32 := Host.scatterAdd scatter_S50000_S800000x1_S800000_n_0_0_1 v1 v2 v0
  have cst_1 : FVec F S_ .f32 := constant S_ .f32 0x3F800000#32
  have v4 : FVec F S50000 .f32 := broadcastInDim S50000 ![] bcast_S_S50000 cst_1
  have v5 : FVec F S50000 .f32 := maximumf v3 v4
  have v6 : FVec F S50000x1 .f32 := broadcastInDim S50000x1 ![0] bcast_S50000_S50000x1_0 v5
  have cst_2 : FVec F S_ .f32 := constant S_ .f32 0xBF000000#32
  have v7 : FVec F S50000x1 .f32 := broadcastInDim S50000x1 ![] bcast_S_S50000x1 cst_2
  have v8 : FVec F S50000x1 .f32 := Host.powf v6 v7
  have v9 : FVec F S50000x100 .f32 := broadcastInDim S50000x100 ![0, 1] bcast_S50000x1_S50000x100_0_1 v8
  have v10 : FVec F S50000x100 .f32 := mulf a0 v9
  have c : IVec S_ 32 := constantI S_ 32 0#32
  have v11 : IVec S800000 32 := broadcastInDim S800000 ![] bcast_S_S800000 c
  have v12 : IVec S800000 1 := cmpi .slt a3 v11
  have c_3 : IVec S_ 32 := constantI S_ 32 50000#32
  have v13 : IVec S800000 32 := broadcastInDim S800000 ![] bcast_S_S800000 c_3
  have v14 : IVec S800000 32 := addi a3 v13
  have v15 : IVec S800000 32 := select (s := S800000) (α := BitVec 32) v12 v14 a3
  have v16 : IVec S800000x1 32 := broadcastInDim S800000x1 ![0] bcast_S800000_S800000x1_0 v15
  have v17 : FVec F S800000x100 .f32 := Host.gather gather_S50000x100_S800000x1_S800000x100_1_0_n_n_0_1_1100 v10 v16
  have cst_4 : FVec F S_ .f32 := constant S_ .f32 0x00000000#32
  have v18 : FVec F S50000x100 .f32 := broadcastInDim S50000x100 ![] bcast_S_S50000x100 cst_4
  have v19 : IVec S800000x1 32 := broadcastInDim S800000x1 ![0] bcast_S800000_S800000x1_0 a4
  have v20 : FVec F S50000x100 .f32 := Host.scatterAdd scatter_S50000x100_S800000x1_S800000x100_1_0_0_1 v18 v19 v17
  have v21 : FVec F S50000x100 .f32 := broadcastInDim S50000x100 ![0, 1] bcast_S50000x1_S50000x100_0_1 v8
  have v22 : FVec F S50000x100 .f32 := mulf v20 v21
  have v23 : FVec F S50000x100 .f32 := broadcastInDim S50000x100 ![0, 1] bcast_S50000x1_S50000x100_0_1 v8
  have v24 : FVec F S50000x100 .f32 := mulf v22 v23
  have c_5 : IVec S_ 32 := constantI S_ 32 0#32
  have v25 : IVec S800000 32 := broadcastInDim S800000 ![] bcast_S_S800000 c_5
  have v26 : IVec S800000 1 := cmpi .slt a3 v25
  have c_6 : IVec S_ 32 := constantI S_ 32 50000#32
  have v27 : IVec S800000 32 := broadcastInDim S800000 ![] bcast_S_S800000 c_6
  have v28 : IVec S800000 32 := addi a3 v27
  have v29 : IVec S800000 32 := select (s := S800000) (α := BitVec 32) v26 v28 a3
  have v30 : IVec S800000x1 32 := broadcastInDim S800000x1 ![0] bcast_S800000_S800000x1_0 v29
  have v31 : FVec F S800000x100 .f32 := Host.gather gather_S50000x100_S800000x1_S800000x100_1_0_n_n_0_1_1100 v24 v30
  have cst_7 : FVec F S_ .f32 := constant S_ .f32 0x00000000#32
  have v32 : FVec F S50000x100 .f32 := broadcastInDim S50000x100 ![] bcast_S_S50000x100 cst_7
  have v33 : IVec S800000x1 32 := broadcastInDim S800000x1 ![0] bcast_S800000_S800000x1_0 a4
  have v34 : FVec F S50000x100 .f32 := Host.scatterAdd scatter_S50000x100_S800000x1_S800000x100_1_0_0_1 v32 v33 v31
  have v35 : FVec F S50000x100 .f32 := broadcastInDim S50000x100 ![0, 1] bcast_S50000x1_S50000x100_0_1 v8
  have v36 : FVec F S50000x100 .f32 := mulf v34 v35
  have v37 : FVec F S50000x100 .f32 := broadcastInDim S50000x100 ![0, 1] bcast_S50000x1_S50000x100_0_1 v8
  have v38 : FVec F S50000x100 .f32 := mulf v36 v37
  have c_8 : IVec S_ 32 := constantI S_ 32 0#32
  have v39 : IVec S800000 32 := broadcastInDim S800000 ![] bcast_S_S800000 c_8
  have v40 : IVec S800000 1 := cmpi .slt a3 v39
  have c_9 : IVec S_ 32 := constantI S_ 32 50000#32
  have v41 : IVec S800000 32 := broadcastInDim S800000 ![] bcast_S_S800000 c_9
  have v42 : IVec S800000 32 := addi a3 v41
  have v43 : IVec S800000 32 := select (s := S800000) (α := BitVec 32) v40 v42 a3
  have v44 : IVec S800000x1 32 := broadcastInDim S800000x1 ![0] bcast_S800000_S800000x1_0 v43
  have v45 : FVec F S800000x100 .f32 := Host.gather gather_S50000x100_S800000x1_S800000x100_1_0_n_n_0_1_1100 v38 v44
  have cst_10 : FVec F S_ .f32 := constant S_ .f32 0x00000000#32
  have v46 : FVec F S50000x100 .f32 := broadcastInDim S50000x100 ![] bcast_S_S50000x100 cst_10
  have v47 : IVec S800000x1 32 := broadcastInDim S800000x1 ![0] bcast_S800000_S800000x1_0 a4
  have v48 : FVec F S50000x100 .f32 := Host.scatterAdd scatter_S50000x100_S800000x1_S800000x100_1_0_0_1 v46 v47 v45
  have v49 : FVec F S50000x100 .f32 := broadcastInDim S50000x100 ![0, 1] bcast_S50000x1_S50000x100_0_1 v8
  have v50 : FVec F S50000x100 .f32 := mulf v48 v49
  v50

/-- The result from h: operations %51 … %65 composed, the variance and standard-deviation helpers written out where
    they are called. `v53` is the column mean, `v56` the centred array; `var_v3` is the same mean again,
    `var_v9` the column sums of squared deviations, `var_v8` = 50000 - 1 the divisor, `var_v11` the variance, kept
    by the `select` because the divisor is positive; `v57` its square root; `v60` the standardised array, `v62` its
    product with the transposed weights, `v65` that plus the bias in every row. -/
def tail (h : FVec F S50000x100 .f32) (a1 : FVec F S40x100 .f32) (a2 : FVec F S40 .f32) : FVec F S50000x40 .f32 :=
  have cst_11 : FVec F S_ .f32 := constant S_ .f32 0x00000000#32
  have v51 : FVec F S100 .f32 := Host.reduceAdd h cst_11 reducesTo_S50000x100_S100_d0 h_S_
  have cst_12 : FVec F S_ .f32 := constant S_ .f32 0x47435000#32
  have v52 : FVec F S100 .f32 := broadcastInDim S100 ![] bcast_S_S100 cst_12
  have v53 : FVec F S100 .f32 := Host.divf v51 v52
  have v54 : FVec F S1x100 .f32 := broadcastInDim S1x100 ![1] bcast_S100_S1x100_1 v53
  have v55 : FVec F S50000x100 .f32 := broadcastInDim S50000x100 ![0, 1] bcast_S1x100_S50000x100_0_1 v54
  have v56 : FVec F S50000x100 .f32 := subf h v55
  have c_13 : IVec S_ 32 := constantI S_ 32 1#32
  have var_cst : FVec F S_ .f32 := constant S_ .f32 0x00000000#32
  have var_v0 : FVec F S100 .f32 := Host.reduceAdd h var_cst reducesTo_S50000x100_S100_d0 h_S_
  have var_v1 : FVec F S1x100 .f32 := broadcastInDim S1x100 ![1] bcast_S100_S1x100_1 var_v0
  have var_cst_0 : FVec F S_ .f32 := constant S_ .f32 0x47435000#32
  have var_v2 : FVec F S1x100 .f32 := broadcastInDim S1x100 ![] bcast_S_S1x100 var_cst_0
  have var_v3 : FVec F S1x100 .f32 := Host.divf var_v1 var_v2
  have var_v4 : FVec F S50000x100 .f32 := broadcastInDim S50000x100 ![0, 1] bcast_S1x100_S50000x100_0_1 var_v3
  have var_v5 : FVec F S50000x100 .f32 := subf h var_v4
  have var_v6 : FVec F S50000x100 .f32 := mulf var_v5 var_v5
  have var_v7 : FVec F S_ .f32 := sitofp .f32 c_13
  have var_cst_1 : FVec F S_ .f32 := constant S_ .f32 0x47435000#32
  have var_v8 : FVec F S_ .f32 := subf var_cst_1 var_v7
  have var_cst_2 : FVec F S_ .f32 := constant S_ .f32 0x00000000#32
  have var_v9 : FVec F S100 .f32 := Host.reduceAdd var_v6 var_cst_2 reducesTo_S50000x100_S100_d0 h_S_
  have var_v10 : FVec F S100 .f32 := broadcastInDim S100 ![] bcast_S_S100 var_v8
  have var_v11 : FVec F S100 .f32 := Host.divf var_v9 var_v10
  have var_cst_3 : FVec F S_ .f32 := constant S_ .f32 0x00000000#32
  have var_v12 : IVec S_ 1 := cmpf .ogt var_v8 var_cst_3
  have var_cst_4 : FVec F S_ .f32 := constant S_ .f32 0x7FC00000#32
  have whr_v0 : FVec F S_ .f32 := var_cst_4
  have whr_v1 : FVec F S100 .f32 := broadcastInDim S100 ![] bcast_S_S100 whr_v0
  have whr_v2 : FVec F S100 .f32 := select (s := S100) (α := F .f32) (broadcastInDim S100 ![] bcast_S_S100 var_v12) var_v11 whr_v1
  have v57 : FVec F S100 .f32 := Host.sqrt whr_v2
  have v58 : FVec F S1x100 .f32 := broadcastInDim S1x100 ![1] bcast_S100_S1x100_1 v57
  have v59 : FVec F S50000x100 .f32 := broadcastInDim S50000x100 ![0, 1] bcast_S1x100_S50000x100_0_1 v58
  have v60 : FVec F S50000x100 .f32 := Host.divf v56 v59
  have v61 : FVec F S100x40 .f32 := transpose S100x40 [1, 0] a1 transposes_S40x100_S100x40_1_0
  have v62 : FVec F S50000x40 .f32 := Host.dotGeneral dot_S50000x100_S100x40_S50000x40_1_0_0_1_n_n none v60 v61
  have v63 : FVec F S1x40 .f32 := broadcastInDim S1x40 ![1] bcast_S40_S1x40_1 a2
  have v64 : FVec F S50000x40 .f32 := broadcastInDim S50000x40 ![0, 1] bcast_S1x40_S50000x40_0_1 v63
  have v65 : FVec F S50000x40 .f32 := addf v62 v64
  v65

end Cert.ReferenceIdeal.HandRun

end
-- ==== Proof.RefRun.lean ====
/- The idealized reference's run, read back: its @main is a straight line of 104 host operations once the
   variance, standard-deviation and select helpers are written out where they are called, so every weakly fair
   execution terminates with each buffer at the operations' fold over the launch contents; the result buffer's
   fold is `tail (prop …) …` of the argument arrays, and no operation writes an argument. -/
import proofs.«112541_j12695923327569_1_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 104 operations, in order: %0 … %56 and the constant 1, then the operations of the variance helper
    (nineteen), of the select helper it calls (three) and the square root, each over the buffers of its call, then
    %58 … %65. -/
abbrev ops : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg4 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (maximumf : (⟨S50000, .f32⟩ : BufTy).Contents (Elt F) → (⟨S50000, .f32⟩ : BufTy).Contents (Elt F) → (⟨S50000, .f32⟩ : BufTy).Contents (Elt F)),
    StableHlo.unary main_v5 main_v6 (broadcastInDim S50000x1 ![0] bcast_S50000_S50000x1_0 : (⟨S50000, .f32⟩ : BufTy).Contents (Elt F) → (⟨S50000x1, .f32⟩ : BufTy).Contents (Elt F)),
    StableHlo.nullary main_cst_2 (constant S_ .f32 0xBF000000#32),
    StableHlo.unary main_cst_2 main_v7 (broadcastInDim S50000x1 ![] bcast_S_S50000x1 : (⟨S_, .f32⟩ : BufTy).Contents (Elt F) → (⟨S50000x1, .f32⟩ : BufTy).Contents (Elt F)),
    StableHlo.binary main_v6 main_v7 main_v8 (Host.powf : (⟨S50000x1, .f32⟩ : BufTy).Contents (Elt F) → (⟨S50000x1, .f32⟩ : BufTy).Contents (Elt F) → (⟨S50000x1, .f32⟩ : BufTy).Contents (Elt F)),
    StableHlo.unary main_v8 main_v9 (broadcastInDim S50000x100 ![0, 1] bcast_S50000x1_S50000x100_0_1 : (⟨S50000x1, .f32⟩ : BufTy).Contents (Elt F) → (⟨S50000x100, .f32⟩ : BufTy).Contents (Elt F)),
    StableHlo.binary main_arg0 main_v9 main_v10 (mulf : (⟨S50000x100, .f32⟩ : BufTy).Contents (Elt F) → (⟨S50000x100, .f32⟩ : BufTy).Contents (Elt F) → (⟨S50000x100, .f32⟩ : BufTy).Contents (Elt F)),
    StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_arg3 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v13 (broadcastInDim S800000 ![] bcast_S_S800000 : (⟨S_, .i32⟩ : BufTy).Contents (Elt F) → (⟨S800000, .i32⟩ : BufTy).Contents (Elt F)),
    StableHlo.binary main_arg3 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_arg3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v10 main_v16 main_v17 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.nullary main_cst_4 (constant S_ .f32 0x00000000#32),
    StableHlo.unary main_cst_4 main_v18 (broadcastInDim S50000x100 ![] bcast_S_S50000x100 : (⟨S_, .f32⟩ : BufTy).Contents (Elt F) → (⟨S50000x100, .f32⟩ : BufTy).Contents (Elt F)),
    StableHlo.unary main_arg4 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_v8 main_v21 (broadcastInDim S50000x100 ![0, 1] bcast_S50000x1_S50000x100_0_1 : (⟨S50000x1, .f32⟩ : BufTy).Contents (Elt F) → (⟨S50000x100, .f32⟩ : BufTy).Contents (Elt F)),
    StableHlo.binary main_v20 main_v21 main_v22 (mulf : (⟨S50000x100, .f32⟩ : BufTy).Contents (Elt F) → (⟨S50000x100, .f32⟩ : BufTy).Contents (Elt F) → (⟨S50000x100, .f32⟩ : BufTy).Contents (Elt F)),
    StableHlo.unary main_v8 main_v23 (broadcastInDim S50000x100 ![0, 1] bcast_S50000x1_S50000x100_0_1 : (⟨S50000x1, .f32⟩ : BufTy).Contents (Elt F) → (⟨S50000x100, .f32⟩ : BufTy).Contents (Elt F)),
    StableHlo.binary main_v22 main_v23 main_v24 (mulf : (⟨S50000x100, .f32⟩ : BufTy).Contents (Elt F) → (⟨S50000x100, .f32⟩ : BufTy).Contents (Elt F) → (⟨S50000x100, .f32⟩ : BufTy).Contents (Elt F)),
    StableHlo.nullary main_c_5 (constantI S_ 32 0#32),
    StableHlo.unary main_c_5 main_v25 (broadcastInDim S800000 ![] bcast_S_S800000 : (⟨S_, .i32⟩ : BufTy).Contents (Elt F) → (⟨S800000, .i32⟩ : BufTy).Contents (Elt F)),
    StableHlo.binary main_arg3 main_v25 main_v26 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v27 (broadcastInDim S800000 ![] bcast_S_S800000 : (⟨S_, .i32⟩ : BufTy).Contents (Elt F) → (⟨S800000, .i32⟩ : BufTy).Contents (Elt F)),
    StableHlo.binary main_arg3 main_v27 main_v28 (addi : (⟨S800000, .i32⟩ : BufTy).Contents (Elt F) → (⟨S800000, .i32⟩ : BufTy).Contents (Elt F) → (⟨S800000, .i32⟩ : BufTy).Contents (Elt F)),
    StableHlo.ternary main_v26 main_v28 main_arg3 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v29 main_v30 (broadcastInDim S800000x1 ![0] bcast_S800000_S800000x1_0 : (⟨S800000, .i32⟩ : BufTy).Contents (Elt F) → (⟨S800000x1, .i32⟩ : BufTy).Contents (Elt F)),
    StableHlo.binary main_v24 main_v30 main_v31 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.nullary main_cst_7 (constant S_ .f32 0x00000000#32),
    StableHlo.unary main_cst_7 main_v32 (broadcastInDim S50000x100 ![] bcast_S_S50000x100 : (⟨S_, .f32⟩ : BufTy).Contents (Elt F) → (⟨S50000x100, .f32⟩ : BufTy).Contents (Elt F)),
    StableHlo.unary main_arg4 main_v33 (broadcastInDim S800000x1 ![0] bcast_S800000_S800000x1_0 : (⟨S800000, .i32⟩ : BufTy).Contents (Elt F) → (⟨S800000x1, .i32⟩ : BufTy).Contents (Elt F)),
    StableHlo.ternary main_v32 main_v33 main_v31 main_v34 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_v8 main_v35 (broadcastInDim S50000x100 ![0, 1] bcast_S50000x1_S50000x100_0_1 : (⟨S50000x1, .f32⟩ : BufTy).Contents (Elt F) → (⟨S50000x100, .f32⟩ : BufTy).Contents (Elt F)),
    StableHlo.binary main_v34 main_v35 main_v36 (mulf : (⟨S50000x100, .f32⟩ : BufTy).Contents (Elt F) → (⟨S50000x100, .f32⟩ : BufTy).Contents (Elt F) → (⟨S50000x100, .f32⟩ : BufTy).Contents (Elt F)),
    StableHlo.unary main_v8 main_v37 (broadcastInDim S50000x100 ![0, 1] bcast_S50000x1_S50000x100_0_1 : (⟨S50000x1, .f32⟩ : BufTy).Contents (Elt F) → (⟨S50000x100, .f32⟩ : BufTy).Contents (Elt F)),
    StableHlo.binary main_v36 main_v37 main_v38 (mulf : (⟨S50000x100, .f32⟩ : BufTy).Contents (Elt F) → (⟨S50000x100, .f32⟩ : BufTy).Contents (Elt F) → (⟨S50000x100, .f32⟩ : BufTy).Contents (Elt F)),
    StableHlo.nullary main_c_8 (constantI S_ 32 0#32),
    StableHlo.unary main_c_8 main_v39 (broadcastInDim S800000 ![] bcast_S_S800000 : (⟨S_, .i32⟩ : BufTy).Contents (Elt F) → (⟨S800000, .i32⟩ : BufTy).Contents (Elt F)),
    StableHlo.binary main_arg3 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v41 (broadcastInDim S800000 ![] bcast_S_S800000 : (⟨S_, .i32⟩ : BufTy).Contents (Elt F) → (⟨S800000, .i32⟩ : BufTy).Contents (Elt F)),
    StableHlo.binary main_arg3 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_arg3 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v43 main_v44 (broadcastInDim S800000x1 ![0] bcast_S800000_S800000x1_0 : (⟨S800000, .i32⟩ : BufTy).Contents (Elt F) → (⟨S800000x1, .i32⟩ : BufTy).Contents (Elt F)),
    StableHlo.binary main_v38 main_v44 main_v45 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.nullary main_cst_10 (constant S_ .f32 0x00000000#32),
    StableHlo.unary main_cst_10 main_v46 (broadcastInDim S50000x100 ![] bcast_S_S50000x100 : (⟨S_, .f32⟩ : BufTy).Contents (Elt F) → (⟨S50000x100, .f32⟩ : BufTy).Contents (Elt F)),
    StableHlo.unary main_arg4 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.unary main_v8 main_v49 (broadcastInDim S50000x100 ![0, 1] bcast_S50000x1_S50000x100_0_1 : (⟨S50000x1, .f32⟩ : BufTy).Contents (Elt F) → (⟨S50000x100, .f32⟩ : BufTy).Contents (Elt F)),
    StableHlo.binary main_v48 main_v49 main_v50 (mulf : (⟨S50000x100, .f32⟩ : BufTy).Contents (Elt F) → (⟨S50000x100, .f32⟩ : BufTy).Contents (Elt F) → (⟨S50000x100, .f32⟩ : BufTy).Contents (Elt F)),
    StableHlo.nullary main_cst_11 (constant S_ .f32 0x00000000#32),
    StableHlo.binary main_v50 main_cst_11 main_v51 ((fun x v => Host.reduceAdd x v reducesTo_S50000x100_S100_d0 h_S_) : (⟨S50000x100, .f32⟩ : BufTy).Contents (Elt F) → (⟨S_, .f32⟩ : BufTy).Contents (Elt F) → (⟨S100, .f32⟩ : BufTy).Contents (Elt F)),
    StableHlo.nullary main_cst_12 (constant S_ .f32 0x47435000#32),
    StableHlo.unary main_cst_12 main_v52 (broadcastInDim S100 ![] bcast_S_S100 : (⟨S_, .f32⟩ : BufTy).Contents (Elt F) → (⟨S100, .f32⟩ : BufTy).Contents (Elt F)),
    StableHlo.binary main_v51 main_v52 main_v53 (Host.divf : (⟨S100, .f32⟩ : BufTy).Contents (Elt F) → (⟨S100, .f32⟩ : BufTy).Contents (Elt F) → (⟨S100, .f32⟩ : BufTy).Contents (Elt F)),
    StableHlo.unary main_v53 main_v54 (broadcastInDim S1x100 ![1] bcast_S100_S1x100_1 : (⟨S100, .f32⟩ : BufTy).Contents (Elt F) → (⟨S1x100, .f32⟩ : BufTy).Contents (Elt F)),
    StableHlo.unary main_v54 main_v55 (broadcastInDim S50000x100 ![0, 1] bcast_S1x100_S50000x100_0_1 : (⟨S1x100, .f32⟩ : BufTy).Contents (Elt F) → (⟨S50000x100, .f32⟩ : BufTy).Contents (Elt F)),
    StableHlo.binary main_v50 main_v55 main_v56 (subf : (⟨S50000x100, .f32⟩ : BufTy).Contents (Elt F) → (⟨S50000x100, .f32⟩ : BufTy).Contents (Elt F) → (⟨S50000x100, .f32⟩ : BufTy).Contents (Elt F)),
    StableHlo.nullary main_c_13 (constantI S_ 32 1#32),
    StableHlo.TRef.nullary main_call0.call0.cst (constant S_ .f32 0x00000000#32),
    StableHlo.TRef.binary (.of main_v50 : TRef sig ⟨S50000x100, .f32⟩) main_call0.call0.cst main_call0.call0.v0 (fun x v => Host.reduceAdd x v reducesTo_S50000x100_S100_d0 h_S_),
    StableHlo.TRef.unary main_call0.call0.v0 main_call0.call0.v1 (broadcastInDim S1x100 ![1] bcast_S100_S1x100_1),
    StableHlo.TRef.nullary main_call0.call0.cst_0 (constant S_ .f32 0x47435000#32),
    StableHlo.TRef.unary main_call0.call0.cst_0 main_call0.call0.v2 (broadcastInDim S1x100 ![] bcast_S_S1x100),
    StableHlo.TRef.binary main_call0.call0.v1 main_call0.call0.v2 main_call0.call0.v3 Host.divf,
    StableHlo.TRef.unary main_call0.call0.v3 main_call0.call0.v4 (broadcastInDim S50000x100 ![0, 1] bcast_S1x100_S50000x100_0_1),
    StableHlo.TRef.binary (.of main_v50 : TRef sig ⟨S50000x100, .f32⟩) main_call0.call0.v4 main_call0.call0.v5 subf,
    StableHlo.TRef.binary main_call0.call0.v5 main_call0.call0.v5 main_call0.call0.v6 mulf,
    StableHlo.TRef.unary (.of main_c_13 : TRef sig ⟨S_, .i32⟩) main_call0.call0.v7 (sitofp .f32),
    StableHlo.TRef.nullary main_call0.call0.cst_1 (constant S_ .f32 0x47435000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S50000x100_S100_d0 h_S_),
    StableHlo.TRef.unary main_call0.call0.v8 main_call0.call0.v10 (broadcastInDim S100 ![] bcast_S_S100),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S100 ![] bcast_S_S100),
    StableHlo.TRef.ternary main_call0.call0.v12 main_call0.call0.v11 main_call0.call0.call0.v1 main_call0.call0.call0.v2 (fun p a b => select (broadcastInDim S100 ![] bcast_S_S100 p) a b),
    StableHlo.TRef.unary main_call0.call0.call0.v2 main_call0.v1 Host.sqrt,
    StableHlo.unary main_v57 main_v58 (broadcastInDim S1x100 ![1] bcast_S100_S1x100_1 : (⟨S100, .f32⟩ : BufTy).Contents (Elt F) → (⟨S1x100, .f32⟩ : BufTy).Contents (Elt F)),
    StableHlo.unary main_v58 main_v59 (broadcastInDim S50000x100 ![0, 1] bcast_S1x100_S50000x100_0_1 : (⟨S1x100, .f32⟩ : BufTy).Contents (Elt F) → (⟨S50000x100, .f32⟩ : BufTy).Contents (Elt F)),
    StableHlo.binary main_v56 main_v59 main_v60 (Host.divf : (⟨S50000x100, .f32⟩ : BufTy).Contents (Elt F) → (⟨S50000x100, .f32⟩ : BufTy).Contents (Elt F) → (⟨S50000x100, .f32⟩ : BufTy).Contents (Elt F)),
    StableHlo.unary main_arg1 main_v61 ((transpose S100x40 [1, 0] · transposes_S40x100_S100x40_1_0) : (⟨S40x100, .f32⟩ : BufTy).Contents (Elt F) → (⟨S100x40, .f32⟩ : BufTy).Contents (Elt F)),
    StableHlo.binary main_v60 main_v61 main_v62 ((fun l r => Host.dotGeneral dot_S50000x100_S100x40_S50000x40_1_0_0_1_n_n none l r) : (⟨S50000x100, .f32⟩ : BufTy).Contents (Elt F) → (⟨S100x40, .f32⟩ : BufTy).Contents (Elt F) → (⟨S50000x40, .f32⟩ : BufTy).Contents (Elt F)),
    StableHlo.unary main_arg2 main_v63 (broadcastInDim S1x40 ![1] bcast_S40_S1x40_1 : (⟨S40, .f32⟩ : BufTy).Contents (Elt F) → (⟨S1x40, .f32⟩ : BufTy).Contents (Elt F)),
    StableHlo.unary main_v63 main_v64 (broadcastInDim S50000x40 ![0, 1] bcast_S1x40_S50000x40_0_1 : (⟨S1x40, .f32⟩ : BufTy).Contents (Elt F) → (⟨S50000x40, .f32⟩ : BufTy).Contents (Elt F)),
    StableHlo.binary main_v62 main_v64 main_v65 (addf : (⟨S50000x40, .f32⟩ : BufTy).Contents (Elt F) → (⟨S50000x40, .f32⟩ : BufTy).Contents (Elt F) → (⟨S50000x40, .f32⟩ : BufTy).Contents (Elt F)) ]

set_option maxRecDepth 8192 in
set_option maxHeartbeats 4000000 in
/-- @main is that straight line: its two windows and the three helpers' bodies unfold to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., unary_bufs_sub .., binary_bufs_sub .., unary_bufs_sub .., binary_bufs_sub .., unary_bufs_sub ..,
    unary_bufs_sub .., binary_bufs_sub ..⟩

set_option maxRecDepth 8192 in
set_option maxHeartbeats 41600000 in
/-- On every device, for any float values, from any memory with zero counters: every weakly fair execution of @main
    terminates with the result at `tail (prop …) …` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v65)
          = tail (prop (m ((c.tc : Thread nD τ).loc main_arg0)) (m ((c.tc : Thread nD τ).loc main_arg3)) (m ((c.tc : Thread nD τ).loc main_arg4)))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v65).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.HandRun

end
-- ==== Proof.Region0.lean ====
/-
  What the first kernel region leaves in its two result arrays, as functions of the array it finds on entry.

  The region walks ten row tiles of h [50000,100], 5000 rows each, with two [1,100] outputs whose block is the same at
  every point. The first point stores a zero row into each output; then every point (the first included) loads its
  5000 rows, adds their column sums onto the first output's buffer and the column sums of their squares onto the
  second's. Neither buffer is written back before the last point, so after point n the buffers hold the column sums and
  the column sums of squares over rows 0 … 5000·(n + 1) − 1 (by induction on the point), and the one write-back, at the last
  point, writes the sums over all 50000 rows:
      sum q = ∑ᵣ h r q,        sumsq q = ∑ᵣ h r q · h r q.
  At the extended reals a sum over one axis is the `Fin`-indexed sum, the zero row is 0, and the 50000 rows re-index as
  10 blocks × 5000 rows. Addition of extended reals is commutative and associative, so no finiteness is needed here.
-/
import proofs.«112541_j12695923327569_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region0

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open scoped BigOperators

/-! ## What each control case leaves in the two output buffers -/

section Pieces

variable {F : FTy → Type} [FloatOps F]

/-- The offsets of a store or load of a whole block: zero on both axes. -/
theorem hz : (![0, 0] : Fin 2 → Nat) = fun _ => 0 := funext fun a => by fin_cases a <;> rfl

/-- A later point leaves, in the first output's buffer holding `xo1`, `xo1` plus the column sums of its block `x`. -/
theorem out_B_1 (c : Dev nD) (i : grid0.Coords) (a1 : Memref sig .tc .vmem S5000x100 .f32) (h1 : a1.IsWhole)
    (a2 : Memref sig .tc .vmem S1x100 .f32) (h2 : a2.IsWhole) (a3 : Memref sig .tc .vmem S1x100 .f32) (h3 : a3.IsWhole)
    (hc : ¬cond0_0 i) (x : Vec F S5000x100 .f32) (xo1 xo2 : Vec F S1x100 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  rw [View.canon_unit_zero hz]
  simp only [View.readAt_eq_ld, h1.read_unread, h2.read_unread, View.ld_unit_zero (S := S5000x100) hz,
    View.ld_unit_zero (S := S1x100) hz]

/-- A later point leaves, in the second output's buffer holding `xo2`, `xo2` plus the column sums of squares of `x`. -/
theorem out_B_2 (c : Dev nD) (i : grid0.Coords) (a1 : Memref sig .tc .vmem S5000x100 .f32) (h1 : a1.IsWhole)
    (a2 : Memref sig .tc .vmem S1x100 .f32) (h2 : a2.IsWhole) (a3 : Memref sig .tc .vmem S1x100 .f32) (h3 : a3.IsWhole)
    (hc : ¬cond0_0 i) (x : Vec F S5000x100 .f32) (xo1 xo2 : Vec F S1x100 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  rw [View.canon_unit_zero hz]
  simp only [View.readAt_eq_ld, h1.read_unread, h3.read_unread, View.ld_unit_zero (S := S5000x100) hz,
    View.ld_unit_zero (S := S1x100) hz]

/-- The first point stores the zero row, reads it back, and leaves zero plus the column sums of its block. -/
theorem out_A_1 (c : Dev nD) (i : grid0.Coords) (a1 : Memref sig .tc .vmem S5000x100 .f32) (h1 : a1.IsWhole)
    (a2 : Memref sig .tc .vmem S1x100 .f32) (h2 : a2.IsWhole) (a3 : Memref sig .tc .vmem S1x100 .f32) (h3 : a3.IsWhole)
    (hc : cond0_0 i) (x : Vec F S5000x100 .f32) :
    out0_A_1 c i a1 h1 a2 h2 a3 h3 hc x = k0_pay4 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x100) hz, View.readCov_unit_zero (S := S1x100) _ hz]
  simp only [View.readAt_eq_ld, h1.read_unread, View.ld_unit_zero (S := S5000x100) hz]

/-- The first point likewise leaves zero plus the column sums of squares in the second output. -/
theorem out_A_2 (c : Dev nD) (i : grid0.Coords) (a1 : Memref sig .tc .vmem S5000x100 .f32) (h1 : a1.IsWhole)
    (a2 : Memref sig .tc .vmem S1x100 .f32) (h2 : a2.IsWhole) (a3 : Memref sig .tc .vmem S1x100 .f32) (h3 : a3.IsWhole)
    (hc : cond0_0 i) (x : Vec F S5000x100 .f32) :
    out0_A_2 c i a1 h1 a2 h2 a3 h3 hc x = k0_pay5 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x100) hz, View.readCov_unit_zero (S := S1x100) _ hz]
  simp only [View.readAt_eq_ld, h1.read_unread, View.ld_unit_zero (S := S5000x100) hz]

end Pieces

/-! ## The body's stored values at an index, at the extended reals -/

/-- A column of a [5000,100] block with row `p` inserted: the index (p, q). -/
theorem lift_eq (q : Fin 100) (p : Fin 5000) : reduces_S5000x100_S100.lift (ix1 q) p = ix2 p q := by
  funext a
  apply Fin.ext
  match a with
  | ⟨0, _⟩ => rfl
  | ⟨1, _⟩ => rfl

/-- The sum over rows of a [5000,100] block, read at column `q`. -/
theorem colsum_apply (src : FVec Ideal S5000x100 .f32) (hφ : FKind.Formats .f32)
    (hacc : (0x00000000#32 : BitVec 32) = FKind.add.neutral .f32 hφ) (q : Fin 100) :
    multiReduction .add [0] S100 src 0x00000000#32 reduces_S5000x100_S100 hφ hacc (ix1 q) = ∑ p : Fin 5000, src (ix2 p q) := by
  refine (Ideal.multiReduction_add_single src 0x00000000#32 reduces_S5000x100_S100 hφ hacc (ix1 q)).trans ?_
  refine Finset.sum_congr rfl fun p _ => ?_
  exact congrArg src (lift_eq q p)

/-- The first output's stored value at column `q`: what the buffer held plus the block's column sum. -/
theorem pay4_apply (x : Vec Ideal S5000x100 .f32) (acc : Vec Ideal S1x100 .f32) (q : Fin 100) :
    k0_pay4 (F := Ideal) x acc (ix2 (0 : Fin 1) q) = acc (ix2 0 q) + ∑ p : Fin 5000, x (ix2 p q) := by
  unfold k0_pay4 k0_pay3
  refine (addf_apply _ _ _).trans ?_
  refine congrArg₂ (· + ·) ?_ ?_
  · exact congrFun (shapeCast_self acc _) _
  · refine (shapeCast_a_1a_apply _ _ 0 q).trans ?_
    refine (colsum_apply _ _ _ q).trans ?_
    refine Finset.sum_congr rfl fun p _ => ?_
    exact congrFun (shapeCast_self x _) _

/-- The second output's stored value at column `q`: what the buffer held plus the block's column sum of squares. -/
theorem pay5_apply (x : Vec Ideal S5000x100 .f32) (acc : Vec Ideal S1x100 .f32) (q : Fin 100) :
    k0_pay5 (F := Ideal) x acc (ix2 (0 : Fin 1) q) = acc (ix2 0 q) + ∑ p : Fin 5000, x (ix2 p q) * x (ix2 p q) := by
  unfold k0_pay5 k0_pay3
  refine (addf_apply _ _ _).trans ?_
  refine congrArg₂ (· + ·) ?_ ?_
  · exact congrFun (shapeCast_self acc _) _
  · refine (shapeCast_a_1a_apply _ _ 0 q).trans ?_
    refine (colsum_apply _ _ _ q).trans ?_
    refine Finset.sum_congr rfl fun p _ => ?_
    refine (mulf_apply _ _ _).trans ?_
    exact congrArg₂ (· * ·) (congrFun (shapeCast_self x _) _) (congrFun (shapeCast_self x _) _)

/-- The row the first point stores before it accumulates is zero everywhere. -/
theorem pay1_apply (j : S1x100.Idx) : k0_pay1 (F := Ideal) j = 0 := Ideal.ofBits_zero_f32
theorem pay2_apply (j : S1x100.Idx) : k0_pay2 (F := Ideal) j = 0 := Ideal.ofBits_zero_f32

/-! ## Rows 0 … 49999 as ten blocks of 5000 -/

/-- A sum over the 50000 rows is the sum over the ten row blocks of the sums over each block's 5000 rows. -/
theorem sum_rows {M : Type*} [AddCommMonoid M] (g : Fin 50000 → M) :
    ∑ r : Fin 50000, g r = ∑ s : Fin 10, ∑ p : Fin 5000, g ⟨5000 * s.val + p.val, by have := s.isLt; have := p.isLt; omega⟩ := by
  rw [← Equiv.sum_comp (finProdFinEquiv : Fin 10 × Fin 5000 ≃ Fin 50000) g, Fintype.sum_prod_type]
  refine Finset.sum_congr rfl fun s _ => Finset.sum_congr rfl fun p _ => congrArg g (Fin.ext ?_)
  show p.val + 5000 * s.val = 5000 * s.val + p.val
  omega

/-- Column `q`'s sum over row block `s` (zero past the tenth block, so that the running sum needs no bound). -/
def blk (X : S50000x100.Idx → EReal) (s : ℕ) (q : Fin 100) : EReal :=
  if h : s < 10 then ∑ p : Fin 5000, X (ix2 (⟨5000 * s + p.val, by have := p.isLt; omega⟩ : Fin 50000) q) else 0

/-- Column `q`'s sum of squares over row block `s`. -/
def blkSq (X : S50000x100.Idx → EReal) (s : ℕ) (q : Fin 100) : EReal :=
  if h : s < 10 then ∑ p : Fin 5000, X (ix2 (⟨5000 * s + p.val, by have := p.isLt; omega⟩ : Fin 50000) q)
      * X (ix2 (⟨5000 * s + p.val, by have := p.isLt; omega⟩ : Fin 50000) q) else 0

/-- The column sums over the first `n` row blocks, as a [1,100] row. -/
def psum (X : S50000x100.Idx → EReal) (n : ℕ) : S1x100.Idx → EReal := fun j => ∑ s ∈ Finset.range n, blk X s (j 1)
/-- The column sums of squares over the first `n` row blocks. -/
def psumSq (X : S50000x100.Idx → EReal) (n : ℕ) : S1x100.Idx → EReal := fun j => ∑ s ∈ Finset.range n, blkSq X s (j 1)

/-- Over all ten blocks the running sum is the sum over every row. -/
theorem psum_ten (X : S50000x100.Idx → EReal) (j : S1x100.Idx) : psum X 10 j = ∑ r : Fin 50000, X (ix2 r (j 1)) := by
  unfold psum
  rw [Finset.sum_range, sum_rows (fun r => X (ix2 r (j 1)))]
  refine Finset.sum_congr rfl fun s _ => ?_
  unfold blk
  rw [dif_pos s.isLt]

theorem psumSq_ten (X : S50000x100.Idx → EReal) (j : S1x100.Idx) :
    psumSq X 10 j = ∑ r : Fin 50000, X (ix2 r (j 1)) * X (ix2 r (j 1)) := by
  unfold psumSq
  rw [Finset.sum_range, sum_rows (fun r => X (ix2 r (j 1)) * X (ix2 r (j 1)))]
  refine Finset.sum_congr rfl fun s _ => ?_
  unfold blkSq
  rw [dif_pos s.isLt]

/-! ## The accumulation over the grid -/

section Run

variable (V : (c : Dev nD) → (b : Ref sig .tc) → Buf (Elt Ideal) ((c : Thread nD τ).loc b))

/-- The printed index maps over the grid: the input's row block moves with the point, both outputs stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The input's block at point `t` is rows 5000·t … 5000·t + 4999 of `h`. -/
theorem iblk_apply (c : Dev nD) (t : Fin cfg0.N) (y : S5000x100.Idx) (k : S50000x100.Idx)
    (hk0 : (k 0).val = 5000 * t.val + (y 0).val) (hk1 : (k 1).val = (y 1).val) :
    (iblk0 V c 0 t : Vec Ideal S5000x100 .f32) y = (V c main_v50 : S50000x100.Idx → EReal) k := by
  obtain ⟨e0, e1, -⟩ := idx_facts t
  unfold iblk0
  rw [View.read_apply]
  show V c main_v50 _ = V c main_v50 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 100 + 1 * (y 1).val = (k 1).val; rw [e1, hk1]; omega

/-- One point's step on the first output: what the buffer held plus the point's block's column sums. -/
theorem step1 (c : Dev nD) (t : Fin cfg0.N) (acc : Vec Ideal S1x100 .f32) (j : S1x100.Idx) :
    k0_pay4 (F := Ideal) (iblk0 V c 0 t) acc j = acc j + blk (V c main_v50) t.val (j 1) := by
  obtain ⟨u, q, rfl⟩ : ∃ (u : Fin 1) (q : Fin 100), j = ix2 u q := ⟨j 0, j 1, eq_ix2 j⟩
  obtain rfl : u = 0 := Subsingleton.elim _ _
  refine (pay4_apply (iblk0 V c 0 t) acc q).trans ?_
  have hN : t.val < 10 := lt_of_lt_of_eq t.isLt N_0
  unfold blk
  rw [dif_pos hN]
  refine congrArg (acc (ix2 0 q) + ·) (Finset.sum_congr rfl fun p _ => ?_)
  exact iblk_apply V c t (ix2 p q) _ rfl rfl

/-- One point's step on the second output. -/
theorem step2 (c : Dev nD) (t : Fin cfg0.N) (acc : Vec Ideal S1x100 .f32) (j : S1x100.Idx) :
    k0_pay5 (F := Ideal) (iblk0 V c 0 t) acc j = acc j + blkSq (V c main_v50) t.val (j 1) := by
  obtain ⟨u, q, rfl⟩ : ∃ (u : Fin 1) (q : Fin 100), j = ix2 u q := ⟨j 0, j 1, eq_ix2 j⟩
  obtain rfl : u = 0 := Subsingleton.elim _ _
  refine (pay5_apply (iblk0 V c 0 t) acc q).trans ?_
  have hN : t.val < 10 := lt_of_lt_of_eq t.isLt N_0
  unfold blkSq
  rw [dif_pos hN]
  refine congrArg (acc (ix2 0 q) + ·) (Finset.sum_congr rfl fun p _ => ?_)
  exact congrArg₂ (· * ·) (iblk_apply V c t (ix2 p q) _ rfl rfl) (iblk_apply V c t (ix2 p q) _ rfl rfl)

/-- After point `n` the two output buffers hold the column sums and the column sums of squares over row blocks 0 … n: by
    induction on the point (point 0 resets to zero and adds its block; every later point adds its block). -/
theorem outsAt_eq (c : Dev nD) : ∀ (n : ℕ) (h : n < cfg0.N),
    outsAt0 V c n h = (psum (V c main_v50) (n + 1), psumSq (V c main_v50) (n + 1))
  | 0, h => by
    refine (outsAt0_A V c ⟨0, h⟩ rfl).trans ?_
    rw [out_A_1, out_A_2]
    refine Prod.ext (funext fun j => ?_) (funext fun j => ?_)
    · show k0_pay4 (F := Ideal) (iblk0 V c 0 ⟨0, h⟩) (k0_pay1 (F := Ideal)) j = psum (V c main_v50) 1 j
      rw [step1 V c ⟨0, h⟩ (k0_pay1 (F := Ideal)) j, pay1_apply, zero_add]
      unfold psum
      rw [Finset.sum_range_one]
    · show k0_pay5 (F := Ideal) (iblk0 V c 0 ⟨0, h⟩) (k0_pay2 (F := Ideal)) j = psumSq (V c main_v50) 1 j
      rw [step2 V c ⟨0, h⟩ (k0_pay2 (F := Ideal)) j, pay2_apply, zero_add]
      unfold psumSq
      rw [Finset.sum_range_one]
  | n + 1, h => by
    have hN : cfg0.N = 10 := N_0
    have hB : ¬(⟨n + 1, h⟩ : Fin cfg0.N).val % 10 = 0 := by dsimp only; omega
    rw [outsAt0_B V c ⟨n + 1, h⟩ hB, out_B_1, out_B_2]
    show (k0_pay4 (F := Ideal) (iblk0 V c 0 ⟨n + 1, h⟩) (outsAt0 V c n _).1, k0_pay5 (F := Ideal) (iblk0 V c 0 ⟨n + 1, h⟩) (outsAt0 V c n _).2) = _
    rw [outsAt_eq c n]
    refine Prod.ext (funext fun j => ?_) (funext fun j => ?_)
    · show k0_pay4 (F := Ideal) (iblk0 V c 0 ⟨n + 1, h⟩) (psum (V c main_v50) (n + 1)) j = psum (V c main_v50) (n + 1 + 1) j
      rw [step1 V c ⟨n + 1, h⟩ (psum (V c main_v50) (n + 1)) j]
      unfold psum
      rw [Finset.sum_range_succ _ (n + 1)]
    · show k0_pay5 (F := Ideal) (iblk0 V c 0 ⟨n + 1, h⟩) (psumSq (V c main_v50) (n + 1)) j = psumSq (V c main_v50) (n + 1 + 1) j
      rw [step2 V c ⟨n + 1, h⟩ (psumSq (V c main_v50) (n + 1)) j]
      unfold psumSq
      rw [Finset.sum_range_succ _ (n + 1)]

end Run

/-! ## The two result arrays -/

/-- The column sums of a [50000,100] array, as a [1,100] row. -/
def colSum (X : S50000x100.Idx → EReal) : S1x100.Idx → EReal := fun j => ∑ r : Fin 50000, X (ix2 r (j 1))
/-- The column sums of squares of a [50000,100] array, as a [1,100] row. -/
def colSumSq (X : S50000x100.Idx → EReal) : S1x100.Idx → EReal := fun j => ∑ r : Fin 50000, X (ix2 r (j 1)) * X (ix2 r (j 1))

theorem colSum_apply (X : S50000x100.Idx → EReal) (j : S1x100.Idx) : colSum X j = ∑ r : Fin 50000, X (ix2 r (j 1)) := rfl
theorem colSumSq_apply (X : S50000x100.Idx → EReal) (j : S1x100.Idx) :
    colSumSq X j = ∑ r : Fin 50000, X (ix2 r (j 1)) * X (ix2 r (j 1)) := rfl

section Final

variable (V : (c : Dev nD) → (b : Ref sig .tc) → Buf (Elt Ideal) ((c : Thread nD τ).loc b))

/-- The one write-back of the first output, at the last point, writes the column sums over all ten row blocks: the output's
    one block, read through zero offsets, is the whole [1,100] array. -/
theorem flushed1_eq (c : Dev nD) (t : Fin cfg0.N) (hf : (cfg0.win 1).flush t = true) :
    (dat0 V c).flushed 1 t = ((cfg0.win 1).blk t).view.read (Elt Ideal) (psum (V c main_v50) 10) := by
  have hN : cfg0.N = 10 := N_0
  have h9 : t.val = 9 := by have := (flush0_1 t).mp hf; have := t.isLt; omega
  obtain rfl : t = t0_9 := Fin.ext h9
  show (cfg0.win 1).cut (grid0.coords t0_9) ((dat0 V c).after 1 t0_9) = _
  rw [after0_1, outsAt_eq]
  have hz' : (fun a => win0_1.index t0_9 a * main_v51_0.ty.shape.size a) = fun _ => 0 := funext fun a => by fin_cases a <;> decide
  exact (Memref.read_access_unit_zero (Elt Ideal) main_v51_0 hz' (fun a => by rw [congrFun hz' a]; simp) (psum (V c main_v50) 10)).symm

/-- The one write-back of the second output likewise writes the column sums of squares. -/
theorem flushed2_eq (c : Dev nD) (t : Fin cfg0.N) (hf : (cfg0.win 2).flush t = true) :
    (dat0 V c).flushed 2 t = ((cfg0.win 2).blk t).view.read (Elt Ideal) (psumSq (V c main_v50) 10) := by
  have hN : cfg0.N = 10 := N_0
  have h9 : t.val = 9 := by have := (flush0_2 t).mp hf; have := t.isLt; omega
  obtain rfl : t = t0_9 := Fin.ext h9
  show (cfg0.win 2).cut (grid0.coords t0_9) ((dat0 V c).after 2 t0_9) = _
  rw [after0_2, outsAt_eq]
  have hz' : (fun a => win0_2.index t0_9 a * main_v51_1.ty.shape.size a) = fun _ => 0 := funext fun a => by fin_cases a <;> decide
  exact (Memref.read_access_unit_zero (Elt Ideal) main_v51_1 hz' (fun a => by rw [congrFun hz' a]; simp) (psumSq (V c main_v50) 10)).symm

/-- The last point's block of the first output is the whole [1,100] array. -/
theorem cover1 (i : S1x100.Idx) : ∃ t : Fin cfg0.N, (cfg0.win 1).flush t = true ∧ i ∈ ((cfg0.win 1).blk t).view.set :=
  ⟨t0_9, (flush0_1 t0_9).mpr rfl, by
    show i ∈ ((View.whole main_v51_0).slice (win0_1.rect t0_9)).set
    rw [View.set_slice_whole, Rect.mem_set_unit]
    intro a
    have h0 : (i 0 : Nat) < 1 := (i 0).isLt
    have h1 : (i 1 : Nat) < 100 := (i 1).isLt
    match a with
    | ⟨0, _⟩ =>
      show win0_1.index t0_9 0 * win0_1.size 0 ≤ (i 0 : Nat) ∧ (i 0 : Nat) < win0_1.index t0_9 0 * win0_1.size 0 + win0_1.xsize (grid0.coords t0_9) 0
      rw [show win0_1.index t0_9 0 * win0_1.size 0 = 0 from by decide +kernel, show win0_1.xsize (grid0.coords t0_9) 0 = 1 from by decide +kernel]; omega
    | ⟨1, _⟩ =>
      show win0_1.index t0_9 1 * win0_1.size 1 ≤ (i 1 : Nat) ∧ (i 1 : Nat) < win0_1.index t0_9 1 * win0_1.size 1 + win0_1.xsize (grid0.coords t0_9) 1
      rw [show win0_1.index t0_9 1 * win0_1.size 1 = 0 from by decide +kernel, show win0_1.xsize (grid0.coords t0_9) 1 = 100 from by decide +kernel]; omega⟩

/-- The last point's block of the second output is the whole [1,100] array. -/
theorem cover2 (i : S1x100.Idx) : ∃ t : Fin cfg0.N, (cfg0.win 2).flush t = true ∧ i ∈ ((cfg0.win 2).blk t).view.set :=
  ⟨t0_9, (flush0_2 t0_9).mpr rfl, by
    show i ∈ ((View.whole main_v51_1).slice (win0_2.rect t0_9)).set
    rw [View.set_slice_whole, Rect.mem_set_unit]
    intro a
    have h0 : (i 0 : Nat) < 1 := (i 0).isLt
    have h1 : (i 1 : Nat) < 100 := (i 1).isLt
    match a with
    | ⟨0, _⟩ =>
      show win0_2.index t0_9 0 * win0_2.size 0 ≤ (i 0 : Nat) ∧ (i 0 : Nat) < win0_2.index t0_9 0 * win0_2.size 0 + win0_2.xsize (grid0.coords t0_9) 0
      rw [show win0_2.index t0_9 0 * win0_2.size 0 = 0 from by decide +kernel, show win0_2.xsize (grid0.coords t0_9) 0 = 1 from by decide +kernel]; omega
    | ⟨1, _⟩ =>
      show win0_2.index t0_9 1 * win0_2.size 1 ≤ (i 1 : Nat) ∧ (i 1 : Nat) < win0_2.index t0_9 1 * win0_2.size 1 + win0_2.xsize (grid0.coords t0_9) 1
      rw [show win0_2.index t0_9 1 * win0_2.size 1 = 0 from by decide +kernel, show win0_2.xsize (grid0.coords t0_9) 1 = 100 from by decide +kernel]; omega⟩

/-- THE FIRST RESULT after the region: column `q` holds the sum of `h r q` over all 50000 rows. -/
theorem sum_eq (c : Dev nD) : (Gen.dat0 V c).arrAt 1 cfg0.N = colSum (V c main_v50) :=
  ((Gen.dat0 V c).arrAt_eq_of_cover 1 (psum (V c main_v50) 10) (flushed1_eq V c) cover1).trans
    (funext fun j => psum_ten (V c main_v50) j)

/-- THE SECOND RESULT after the region: column `q` holds the sum of `h r q · h r q` over all 50000 rows. -/
theorem sumsq_eq (c : Dev nD) : (Gen.dat0 V c).arrAt 2 cfg0.N = colSumSq (V c main_v50) :=
  ((Gen.dat0 V c).arrAt_eq_of_cover 2 (psumSq (V c main_v50) 10) (flushed2_eq V c) cover2).trans
    (funext fun j => psumSq_ten (V c main_v50) j)

end Final

end Cert.KernelIdeal.Region0

end
-- ==== Proof.Region1.lean ====
/-
  What the second kernel region leaves in its result array, as one function of the arrays it finds on entry.

  The region walks ten row tiles of 5000 rows. At tile t the body loads rows 5000·t … 5000·t + 4999 of h [50000,100] and the
  whole of mean [1,100], invstd [1,100], Wᵀ [100,40] and b [1,40], and stores, over the whole [5000,40] block of the result,
      ((h − mean) · invstd) ⬝ Wᵀ + b
  with both matmul operands passed through a change of float format (the identity on extended reals) and a zero
  accumulator. Read at the extended reals, entry (p, q) of the stored block is
      ∑ₖ ((h (5000·t + p) k − mean k) · invstd k) · Wᵀ k q + b q,
  that is, entry (5000·t + p, q) of one function `G` of the five arrays. The ten blocks tile the result and every point
  writes its block back, so the array after the region is `G` everywhere (`out_eq`).
-/
import proofs.«112541_j12695923327569_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's stored value at an index -/

/-- The matmul's dimension numbers: [5000,100] × [100,40], contracting the 100. -/
abbrev DD := dot_S5000x100_S100x40_S5000x40_1_0_0_1_n_n

theorem lhs0 (i : S5000x40.Idx) (q : DD.contr.Idx) : (DD.lhsIdx i q 0).val = (i 0).val := by
  unfold DotDims.lhsIdx
  rw [dif_neg (show ¬(0 : Fin S5000x100.rank) ∈ DD.lhsBatch by decide), dif_pos (show (0 : Fin S5000x100.rank) ∈ DD.lhsNonContracting by decide)]
  rfl
theorem lhs1 (i : S5000x40.Idx) (q : DD.contr.Idx) : (DD.lhsIdx i q 1).val = (q ⟨0, by decide⟩).val :=
  DD.lhsIdx_val_of_single rfl i q
theorem rhs0 (i : S5000x40.Idx) (q : DD.contr.Idx) : (DD.rhsIdx i q 0).val = (q ⟨0, by decide⟩).val :=
  DD.rhsIdx_val_of_single rfl i q
theorem rhs1 (i : S5000x40.Idx) (q : DD.contr.Idx) : (DD.rhsIdx i q 1).val = (i 1).val := by
  unfold DotDims.rhsIdx
  rw [dif_neg (show ¬(1 : Fin S100x40.rank) ∈ DD.rhsBatch by decide), dif_pos (show (1 : Fin S100x40.rank) ∈ DD.rhsNonContracting by decide)]
  rfl

/-- The stored value at (r, q): the contraction over k of the normalised row entry times the weight, plus the bias. -/
theorem pay_apply (v0 : Vec Ideal S5000x100 .f32) (v2 v6 : Vec Ideal S1x100 .f32) (v11 : Vec Ideal S100x40 .f32)
    (v15 : Vec Ideal S1x40 .f32) (r : Fin 5000) (q : Fin 40) :
    k1_pay1 (F := Ideal) v0 v2 v6 v11 v15 (ix2 r q)
      = (∑ k : Fin 100, ((v0 (ix2 r k) - v2 (ix2 0 k)) * v6 (ix2 0 k)) * v11 (ix2 k q)) + v15 (ix2 0 q) := by
  unfold k1_pay1
  refine (addf_apply _ _ _).trans ?_
  refine congrArg₂ (· + ·) ?_ ?_
  · refine (Ideal.matmul_constant_zero_apply DD none _ _ (ix2 r q)).trans ?_
    rw [← Equiv.sum_comp (contrEquiv1 DD 100 rfl rfl).symm]
    refine Finset.sum_congr rfl fun k _ => ?_
    have hk := contrEquiv1_symm_val DD 100 rfl rfl k
    have el : DD.lhsIdx (ix2 r q) ((contrEquiv1 DD 100 rfl rfl).symm k) = ix2 r k := funext fun a => Fin.ext (by
      match a with
      | ⟨0, _⟩ => exact lhs0 _ _
      | ⟨1, _⟩ => exact (lhs1 _ _).trans hk)
    have er : DD.rhsIdx (ix2 r q) ((contrEquiv1 DD 100 rfl rfl).symm k) = ix2 k q := funext fun a => Fin.ext (by
      match a with
      | ⟨0, _⟩ => exact (rhs0 _ _).trans hk
      | ⟨1, _⟩ => exact rhs1 _ _)
    rw [el, er]
    simp only [truncf_apply, mulf_apply, subf_apply, shapeCast_self, broadcastTo_1b_ab_apply]
  · simp only [shapeCast_self, broadcastTo_1b_ab_apply]

/-- The offsets of a store or load of a whole block: zero on both axes. -/
theorem hz : (![0, 0] : Fin 2 → Nat) = fun _ => 0 := funext fun a => by fin_cases a <;> rfl

/-- The normalised rows times the weights plus the bias: entry (r, q) is
    ∑ₖ ((x r k − μ k) · s k) · w k q + b q. -/
def G (x : S50000x100.Idx → EReal) (mu iv : S1x100.Idx → EReal) (wt : S100x40.Idx → EReal) (b2 : S1x40.Idx → EReal) :
    S50000x40.Idx → EReal :=
  fun i => (∑ k : Fin 100, ((x (ix2 (i 0) k) - mu (ix2 0 k)) * iv (ix2 0 k)) * wt (ix2 k (i 1))) + b2 (ix2 0 (i 1))

/-- `G` at an index, unfolded. -/
theorem G_apply (x : S50000x100.Idx → EReal) (mu iv : S1x100.Idx → EReal) (wt : S100x40.Idx → EReal) (b2 : S1x40.Idx → EReal)
    (i : S50000x40.Idx) :
    G x mu iv wt b2 i = (∑ k : Fin 100, ((x (ix2 (i 0) k) - mu (ix2 0 k)) * iv (ix2 0 k)) * wt (ix2 k (i 1))) + b2 (ix2 0 (i 1)) := rfl

/-- One block of the result is the matching block of `G`: if the loaded row block `x0` is rows 5000·t … 5000·t + 4999 of
    `X`, the body's stored value at (p, q) is `G` at (5000·t + p, q). -/
theorem pay_blk (x0 : Vec Ideal S5000x100 .f32) (mu iv : Vec Ideal S1x100 .f32) (wt : Vec Ideal S100x40 .f32)
    (b2 : Vec Ideal S1x40 .f32) (X : S50000x100.Idx → EReal) (t : ℕ)
    (h0 : ∀ (y : S5000x100.Idx) (k : S50000x100.Idx), (k 0).val = 5000 * t + (y 0).val → (k 1).val = (y 1).val → x0 y = X k)
    (y : S5000x40.Idx) (i : S50000x40.Idx) (hi0 : (i 0).val = 5000 * t + (y 0).val) (hi1 : (i 1).val = (y 1).val) :
    k1_pay1 (F := Ideal) x0 mu iv wt b2 y = G X mu iv wt b2 i := by
  obtain ⟨p, q, rfl⟩ : ∃ (p : Fin 5000) (q : Fin 40), y = ix2 p q := ⟨y 0, y 1, eq_ix2 y⟩
  obtain ⟨a, b, rfl⟩ : ∃ (a : Fin 50000) (b : Fin 40), i = ix2 a b := ⟨i 0, i 1, eq_ix2 i⟩
  obtain rfl : b = q := Fin.ext hi1
  refine (pay_apply x0 mu iv wt b2 p b).trans ?_
  unfold G
  refine congrArg₂ (· + ·) (Finset.sum_congr rfl fun k _ => ?_) rfl
  rw [h0 (ix2 p k) (ix2 a k) hi0 rfl]

/-! ## From blocks to the array -/

section Blocks

variable (V : (c : Dev nD) → (b : Ref sig .tc) → Buf (Elt Ideal) ((c : Thread nD τ).loc b))

/-- The printed index maps over the grid: the row block of `h` and of the result moves with the point, the four
    whole-array operands stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first operand's block at point `t` is rows 5000·t … 5000·t + 4999 of `h`. -/
theorem iblk0_apply (c : Dev nD) (t : Fin cfg1.N) (y : S5000x100.Idx) (k : S50000x100.Idx)
    (hk0 : (k 0).val = 5000 * t.val + (y 0).val) (hk1 : (k 1).val = (y 1).val) :
    (iblk1 V c 0 t : Vec Ideal S5000x100 .f32) y = (V c main_v50 : S50000x100.Idx → EReal) k := by
  obtain ⟨e0, e1, -⟩ := idx_facts t
  unfold iblk1
  rw [View.read_apply]
  show V c main_v50 _ = V c main_v50 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 100 + 1 * (y 1).val = (k 1).val; rw [e1, hk1]; omega

/-- The mean's block at every point is the whole [1,100] array. -/
theorem iblk1_eq (c : Dev nD) (t : Fin cfg1.N) :
    (iblk1 V c 1 t : Vec Ideal S1x100 .f32) = (V c main_v53 : S1x100.Idx → EReal) := by
  obtain ⟨-, -, e0, e1, -⟩ := idx_facts t
  funext y
  unfold iblk1
  rw [View.read_apply]
  show V c main_v53 _ = V c main_v53 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 100 + 1 * (y 1).val = (y 1).val; rw [e1]; omega

/-- The inverse deviation's block at every point is the whole [1,100] array. -/
theorem iblk2_eq (c : Dev nD) (t : Fin cfg1.N) :
    (iblk1 V c 2 t : Vec Ideal S1x100 .f32) = (V c main_v62 : S1x100.Idx → EReal) := by
  obtain ⟨-, -, -, -, e0, e1, -⟩ := idx_facts t
  funext y
  unfold iblk1
  rw [View.read_apply]
  show V c main_v62 _ = V c main_v62 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 100 + 1 * (y 1).val = (y 1).val; rw [e1]; omega

/-- The transposed weights' block at every point is the whole [100,40] array. -/
theorem iblk3_eq (c : Dev nD) (t : Fin cfg1.N) :
    (iblk1 V c 3 t : Vec Ideal S100x40 .f32) = (V c main_v63 : S100x40.Idx → EReal) := by
  obtain ⟨-, -, -, -, -, -, e0, e1, -⟩ := idx_facts t
  funext y
  unfold iblk1
  rw [View.read_apply]
  show V c main_v63 _ = V c main_v63 y
  congr 1
  funext a
  apply Fin.ext
  match a with
  | ⟨0, _⟩ => show win1_3.index t (0 : Fin 2) * 100 + 1 * (y 0).val = (y 0).val; rw [e0]; omega
  | ⟨1, _⟩ => show win1_3.index t (1 : Fin 2) * 40 + 1 * (y 1).val = (y 1).val; rw [e1]; omega

/-- The bias row's block at every point is the whole [1,40] array. -/
theorem iblk4_eq (c : Dev nD) (t : Fin cfg1.N) :
    (iblk1 V c 4 t : Vec Ideal S1x40 .f32) = (V c main_v64 : S1x40.Idx → EReal) := by
  obtain ⟨-, -, -, -, -, -, -, -, e0, e1, -⟩ := idx_facts t
  funext y
  unfold iblk1
  rw [View.read_apply]
  show V c main_v64 _ = V c main_v64 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 40 + 1 * (y 1).val = (y 1).val; rw [e1]; omega

/-- The whole result as one function of the arrays the region finds. -/
abbrev GV (c : Dev nD) : S50000x40.Idx → EReal :=
  G (V c main_v50) (V c main_v53) (V c main_v62) (V c main_v63) (V c main_v64)

/-- What point `t` writes back is block `t` (rows 5000·t … 5000·t + 4999) of `G`. -/
theorem flushed_eq (c : Dev nD) (t : Fin cfg1.N) :
    (dat1 V c).flushed 5 t = ((cfg1.win 5).blk t).view.read (Elt Ideal) (GV V c) := by
  show (cfg1.win 5).cut (grid1.coords t) ((dat1 V c).after 5 t) = _
  rw [after1_5]
  unfold out1_5
  rw [View.canon_unit_zero hz]
  simp only [View.ld_unit_zero (S := S5000x100) hz, View.ld_unit_zero (S := S1x100) hz, View.ld_unit_zero (S := S100x40) hz,
    View.ld_unit_zero (S := S1x40) hz]
  rw [iblk1_eq, iblk2_eq, iblk3_eq, iblk4_eq]
  obtain ⟨-, -, -, -, -, -, -, -, -, -, e0, e1⟩ := idx_facts t
  funext j
  refine pay_blk (iblk1 V c 0 t) (V c main_v53) (V c main_v62) (V c main_v63) (V c main_v64) (V c main_v50) t.val
    (fun y k h0 h1 => iblk0_apply V c t y k h0 h1) j (((cfg1.win 5).blk t).view.emb j) ?_ ?_
  · show win1_5.index t (0 : Fin 2) * 5000 + 1 * (j 0).val = 5000 * t.val + (j 0).val; rw [e0]; omega
  · show win1_5.index t (1 : Fin 2) * 40 + 1 * (j 1).val = (j 1).val; rw [e1]; omega

/-- An index of the result is in point `t`'s block iff each coordinate is in the block's range on its axis. -/
theorem mem_blk (t : Fin cfg1.N) (i : S50000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v65).slice (win1_5.rect t)).set ↔ _
  rw [View.set_slice_whole, Rect.mem_set_unit]
  exact Iff.rfl

/-- Every row of the result lies in the block of the point `row / 5000`. -/
theorem cover (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have hN : cfg1.N = 10 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; dsimp only; omega
  | ⟨1, _⟩ =>
    show win1_5.index _ (1 : Fin 2) * 40 ≤ (i 1).val ∧ (i 1).val < win1_5.index _ (1 : Fin 2) * 40 + 40
    rw [e1]; omega

/-- THE RESULT ARRAY after the region: every entry (r, q) is ∑ₖ ((h r k − mean k) · invstd k) · Wᵀ k q + b q of the arrays the
    region finds (`G`); the matmul's zero accumulator and the change of format into it leave nothing at the extended reals. -/
theorem out_eq (c : Dev nD) :
    (Gen.dat1 V c).arrAt 5 cfg1.N = G (V c main_v50) (V c main_v53) (V c main_v62) (V c main_v63) (V c main_v64) :=
  (Gen.dat1 V c).arrAt_eq_of_cover 5 (GV V c) (fun t _ => flushed_eq V c t) cover

end Blocks

end Cert.KernelIdeal.Region1

end
-- ==== Proof.ColumnLaw.lean ====
/-
  One feature column of the propagated array, as a family `f : Fin 50000 → EReal` of finite values.

  The reference standardises the column by its mean `μ = (∑ f) / n` and its unbiased deviation
  `√(∑ (f r - μ)² / (n - 1))`, dividing by the deviation; the kernel accumulates `∑ f` and `∑ f²`, forms the
  variance as `(∑ f² - n μ μ) / (n - 1)` and multiplies by the reciprocal of its root. Over the reals
  `∑ (f r - μ)² = ∑ f² - 2 μ ∑ f + n μ² = ∑ f² - n μ²` because `∑ f = n μ`; on the extended reals the same holds once
  every `f r` is a real (the expansion distributes a product over a sum, which fails at an infinity). With the variance
  positive its root `s` is a nonzero real, and then `x · (1 / s)` and `x / s` are both `x · s⁻¹`. (At variance zero
  they differ: `1 / 0 = ⊤` and `0 · ⊤ = 0`, while `0 / 0` is the junk value `⊥`.)
-/
import Idealize.ShloMosaic.PureOps.Ideal
import Idealize.ShloMosaic.PureOps.Ideal.Laws

noncomputable section

namespace Cert.ColumnLaw

open Idealize.ShloMosaic
open scoped BigOperators

/-! ## The float literals of the two programs, as the reals their patterns denote -/

/-- `50000.0`, the number of rows. -/
theorem ofBits_50000 : Ideal.ofBits .f32 0x47435000#32 = ((50000 : ℝ) : EReal) := by
  simp [Ideal.ofBits, Ideal.ieee, -EReal.coe_mul]; norm_num

/-- `49999.0`, the unbiased normaliser `n - 1` as the kernel's host code folded it. -/
theorem ofBits_49999 : Ideal.ofBits .f32 0x47434F00#32 = ((49999 : ℝ) : EReal) := by
  simp [Ideal.ofBits, Ideal.ieee, -EReal.coe_mul]; norm_num

/-- `1.0`. -/
theorem ofBits_one : Ideal.ofBits .f32 0x3F800000#32 = ((1 : ℝ) : EReal) := by
  simp [Ideal.ofBits, Ideal.ieee, -EReal.coe_mul]; norm_num

/-- `-0.5`, the exponent of the degree normalisation. -/
theorem ofBits_neg_half : Ideal.ofBits .f32 0xBF000000#32 = ((-(1 / 2) : ℝ) : EReal) := by
  simp [Ideal.ofBits, Ideal.ieee, -EReal.coe_mul]; norm_num

/-! ## Finite values -/

/-- The coercion of a finite sum of reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A quotient by a nonzero extended real is the product with its inverse. -/
theorem div_of_ne (x : EReal) {y : EReal} (hy : y ≠ 0) : Ideal.div x y = x * y⁻¹ := by
  unfold Ideal.div; rw [if_neg hy]

/-- The quotient of two reals by a nonzero one is the real quotient. -/
theorem div_real (x : ℝ) {y : ℝ} (hy : y ≠ 0) : Ideal.div (x : EReal) (y : EReal) = ((x / y : ℝ) : EReal) := by
  rw [Ideal.div_coe hy, ← EReal.coe_mul]; congr 1; ring

/-- The root of a nonnegative real is the real root. -/
theorem sqrt_real {x : ℝ} (hx : 0 ≤ x) : Ideal.sqrt (x : EReal) = ((Real.sqrt x : ℝ) : EReal) := by
  show (if x < 0 then (⊥ : EReal) else (Real.sqrt x : EReal)) = _
  rw [if_neg (not_lt.mpr hx)]

/-! ## The variance, two ways -/

/-- Over the reals: the sum of squared deviations from `μ` is the sum of squares less `n μ μ`, when `∑ g = n μ`. -/
theorem real_var {n : ℕ} (g : Fin n → ℝ) (N S μ : ℝ) (hN : (n : ℝ) = N) (hS : ∑ r, g r = S) (hμ : S = N * μ) :
    ∑ r, (g r - μ) * (g r - μ) = (∑ r, g r * g r) - N * μ * μ := by
  have h1 : ∀ r, (g r - μ) * (g r - μ) = g r * g r - 2 * μ * g r + μ * μ := fun r => by ring
  simp only [h1, Finset.sum_add_distrib, Finset.sum_sub_distrib, ← Finset.mul_sum, Finset.sum_const,
    Finset.card_univ, Fintype.card_fin, nsmul_eq_mul, hS, hN]
  rw [hμ]; ring

/-- THE COLUMN LAW. For a column of finite values whose variance `∑ (f r - μ)² / 49999` is positive, the kernel's
    standardisation of an entry `a` — the deviation from `(∑ f) / 50000` times the reciprocal root of
    `(∑ f² - 50000 μ μ) / 49999` — is the reference's: the deviation divided by the root of `∑ (f r - μ)² / 49999`. -/
theorem column_law (f : Fin 50000 → EReal) (hf : ∀ r, ∃ x : ℝ, f r = (x : EReal))
    (hpos : 0 < Ideal.div (∑ r, (f r - Ideal.div (∑ r, f r) ((50000 : ℝ) : EReal)) * (f r - Ideal.div (∑ r, f r) ((50000 : ℝ) : EReal)))
      ((49999 : ℝ) : EReal))
    (a : EReal) :
    (a - Ideal.div (∑ r, f r) ((50000 : ℝ) : EReal))
        * Ideal.div ((1 : ℝ) : EReal) (Ideal.sqrt (Ideal.div
            ((∑ r, f r * f r) - ((50000 : ℝ) : EReal) * Ideal.div (∑ r, f r) ((50000 : ℝ) : EReal) * Ideal.div (∑ r, f r) ((50000 : ℝ) : EReal))
            ((49999 : ℝ) : EReal)))
      = Ideal.div (a - Ideal.div (∑ r, f r) ((50000 : ℝ) : EReal))
          (Ideal.sqrt (Ideal.div (∑ r, (f r - Ideal.div (∑ r, f r) ((50000 : ℝ) : EReal)) * (f r - Ideal.div (∑ r, f r) ((50000 : ℝ) : EReal)))
            ((49999 : ℝ) : EReal))) := by
  obtain ⟨g, rfl⟩ : ∃ g : Fin 50000 → ℝ, f = fun r => (g r : EReal) :=
    ⟨fun r => (hf r).choose, funext fun r => (hf r).choose_spec⟩
  have h5 : (50000 : ℝ) ≠ 0 := by norm_num
  have h4 : (49999 : ℝ) ≠ 0 := by norm_num
  -- every term is the coercion of a real
  have hmean : Ideal.div (∑ r, (g r : EReal)) ((50000 : ℝ) : EReal) = (((∑ r, g r) / 50000 : ℝ) : EReal) := by
    rw [← coe_sum, div_real _ h5]
  rw [hmean] at hpos ⊢
  have hdev : ∀ r, ((g r : EReal) - (((∑ r, g r) / 50000 : ℝ) : EReal)) * ((g r : EReal) - (((∑ r, g r) / 50000 : ℝ) : EReal))
      = (((g r - (∑ r, g r) / 50000) * (g r - (∑ r, g r) / 50000) : ℝ) : EReal) := fun r => by
    rw [← EReal.coe_sub, ← EReal.coe_mul]
  have hsq : ∀ r, (g r : EReal) * (g r : EReal) = ((g r * g r : ℝ) : EReal) := fun r => (EReal.coe_mul _ _).symm
  simp only [hdev, hsq, ← coe_sum] at hpos ⊢
  rw [← EReal.coe_mul, ← EReal.coe_mul, ← EReal.coe_sub, div_real _ h4] at ⊢
  rw [div_real _ h4] at hpos ⊢
  -- the two variances are one real
  have hvar : ((∑ r, g r * g r) - 50000 * ((∑ r, g r) / 50000) * ((∑ r, g r) / 50000)) / 49999
      = (∑ r, (g r - (∑ r, g r) / 50000) * (g r - (∑ r, g r) / 50000)) / 49999 := by
    rw [real_var g 50000 (∑ r, g r) ((∑ r, g r) / 50000) (by norm_num) rfl (by field_simp)]
  rw [hvar]
  have hv : 0 < (∑ r, (g r - (∑ r, g r) / 50000) * (g r - (∑ r, g r) / 50000)) / 49999 := by exact_mod_cast hpos
  rw [sqrt_real hv.le]
  have hs : ((Real.sqrt ((∑ r, (g r - (∑ r, g r) / 50000) * (g r - (∑ r, g r) / 50000)) / 49999) : ℝ) : EReal) ≠ 0 := by
    have := Real.sqrt_pos.mpr hv
    exact_mod_cast this.ne'
  rw [div_of_ne _ hs, div_of_ne _ hs, EReal.coe_one, one_mul]

end Cert.ColumnLaw

end
-- ==== Proof.RealArrays.lean ====
/-
  Arrays of finite values. An array over the extended reals is REAL when every entry is (the coercion of) a real
  number. Each host operation of the degree-normalised propagation — a constant, a broadcast, a product, a maximum, a
  real power, a gather, an accumulating scatter — takes real arrays to real arrays: a gather and a broadcast only
  re-read entries, a scatter-add adds to an entry the finitely many updates that land on it, and the rest are the
  extended reals' operations on reals. So the propagated array is real whenever the features are.
-/
import Idealize.ShloMosaic.PureOps.Ideal
import Idealize.ShloMosaic.PureOps.Ideal.Laws
import proofs.«112541_j12695923327569_1_alg».proof.Proof.ColumnLaw

noncomputable section

namespace Cert.RealArrays

open Idealize.ShloMosaic
open scoped BigOperators

variable {s t : Shape}

/-- Every entry is a real number. -/
def IsReal (x : s.Idx → EReal) : Prop := ∀ i, ∃ r : ℝ, x i = (r : EReal)

theorem isReal_of_bits {φ : FTy} (b : BitVec φ.bits) (r : ℝ) (h : Ideal.ofBits φ b = (r : EReal)) :
    IsReal (constant (F := Ideal) s φ b) := fun _ => ⟨r, h⟩

theorem isReal_zero : IsReal (constant (F := Ideal) s .f32 0x00000000#32) := fun _ => ⟨0, Ideal.ofBits_zero_f32⟩
theorem isReal_one : IsReal (constant (F := Ideal) s .f32 0x3F800000#32) := isReal_of_bits _ 1 Cert.ColumnLaw.ofBits_one
theorem isReal_neg_half : IsReal (constant (F := Ideal) s .f32 0xBF000000#32) :=
  isReal_of_bits _ _ Cert.ColumnLaw.ofBits_neg_half

/-- A broadcast re-reads the operand's entries. -/
theorem isReal_broadcastInDim (dims : Fin s.rank → Fin t.rank) (h : s.BroadcastsInDim t dims) {x : s.Idx → EReal}
    (hx : IsReal x) : IsReal (broadcastInDim t dims h x) := fun _ => hx _

/-- A gather re-reads the operand's entries. -/
theorem isReal_gather {si : Shape} {w : Nat} (d : GatherDims s si t) {x : s.Idx → EReal} (idx : IVec si w)
    (hx : IsReal x) : IsReal (Host.gather d x idx) := fun _ => hx _

theorem isReal_mulf {φ : FTy} {a b : FVec Ideal s φ} (ha : IsReal a) (hb : IsReal b) : IsReal (mulf a b) := fun i => by
  obtain ⟨x, hx⟩ := ha i; obtain ⟨y, hy⟩ := hb i
  exact ⟨x * y, by show a i * b i = _; rw [hx, hy, EReal.coe_mul]⟩

theorem isReal_maximumf {φ : FTy} {a b : FVec Ideal s φ} (ha : IsReal a) (hb : IsReal b) : IsReal (maximumf a b) := fun i => by
  obtain ⟨x, hx⟩ := ha i; obtain ⟨y, hy⟩ := hb i
  refine ⟨max x y, ?_⟩
  show max (a i) (b i) = _
  rw [hx, hy]; exact (EReal.coe_strictMono.monotone.map_max).symm

/-- A real to a real power is Mathlib's real power. -/
theorem isReal_powf {φ : FTy} {a b : FVec Ideal s φ} (ha : IsReal a) (hb : IsReal b) : IsReal (Host.powf a b) := fun i => by
  obtain ⟨x, hx⟩ := ha i; obtain ⟨y, hy⟩ := hb i
  refine ⟨Real.rpow x y, ?_⟩
  show Ideal.pow (a i) (b i) = _
  rw [hx, hy]; rfl

/-- An accumulating scatter adds to each entry the finitely many updates that land on it. -/
theorem isReal_scatterAdd {si u : Shape} {w : Nat} {φ : FTy} (d : ScatterDims s si u) {x : FVec Ideal s φ} (idx : IVec si w)
    {upd : FVec Ideal u φ} (hx : IsReal x) (hu : IsReal upd) : IsReal (Host.scatterAdd d x idx upd) := fun i => by
  obtain ⟨a, ha⟩ := hx i
  obtain ⟨g, hg⟩ : ∃ g : u.Idx → ℝ, upd = fun j => (g j : EReal) :=
    ⟨fun j => (hu j).choose, funext fun j => (hu j).choose_spec⟩
  refine ⟨a + ∑ j ∈ Finset.univ.filter (fun j => d.resultIdx? j idx = some i), g j, ?_⟩
  show x i + ∑ j ∈ Finset.univ.filter (fun j => d.resultIdx? j idx = some i), upd j = _
  rw [ha, hg, EReal.coe_add, Cert.ColumnLaw.coe_sum]

/-- Run the lemmas above down a chain of operations (the hypothesis that the features are real is found by `assumption`). -/
macro "real_arrays" : tactic =>
  `(tactic| repeat' first
    | assumption
    | exact isReal_zero
    | exact isReal_one
    | exact isReal_neg_half
    | apply isReal_mulf
    | apply isReal_maximumf
    | apply isReal_powf
    | apply isReal_scatterAdd
    | apply isReal_gather
    | apply isReal_broadcastInDim)

end Cert.RealArrays

end
-- ==== Proof.Reads.lean ====
/-
  The host operations of the normalisation read at an index, over the literal shapes of this kernel: a sum down the
  rows of a [50000, 100] array from zero is, at column `k`, the sum over the 50000 rows of the entry `(r, k)`; a vector
  of 100 (or 40) broadcast to one row reads its entry `k`; a row broadcast down 50000 rows reads the row's entry `k`;
  and a comparison or a bound that holds of a whole array (a reduction by `and` that came out 1) holds entry by entry.
-/
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws
import proofs.«112541_j12695923327569_1_alg».proof.Proof.RealArrays

noncomputable section

namespace Cert.Reads

open Idealize.ShloMosaic Idealize.ShloMosaic.ValueIdx Cert.RealArrays
open scoped BigOperators

variable {α : Type}

/-- A column sum from zero, at column `k`. -/
theorem colsum_apply (x : FVec Ideal ⟨2, ![50000, 100]⟩ .f32)
    (h' : (⟨2, ![50000, 100]⟩ : Shape).ReducesTo [0] ⟨1, ![100]⟩) (hu : 0 < (⟨0, ![]⟩ : Shape).numel) (k : Fin 100) :
    Host.reduceAdd x (constant (F := Ideal) ⟨0, ![]⟩ .f32 0x00000000#32) h' hu (ix1 k) = ∑ r : Fin 50000, x (ix2 r k) := by
  have hR : (⟨2, ![50000, 100]⟩ : Shape).Reduces [0] ⟨1, ![100]⟩ := by decide
  show Ideal.hostReduceAdd h' x (Ideal.ofBits .f32 0x00000000#32) (ix1 k) = _
  rw [Ideal.hostReduceAdd_single h' hR, Ideal.ofBits_zero_f32, zero_add]
  show ∑ r : Fin 50000, x (hR.lift (ix1 k) r) = _
  refine Finset.sum_congr rfl fun r _ => congrArg x (funext fun a => ?_)
  match a with
  | ⟨0, _⟩ => rfl
  | ⟨1, _⟩ => rfl

/-- A vector of `n` entries as one row: entry `(0, k)` is the vector's entry `k`. -/
theorem row_of_vec_apply {n : Nat} (v : (⟨1, ![n]⟩ : Shape).Idx → α)
    (h : (⟨1, ![n]⟩ : Shape).BroadcastsInDim ⟨2, ![1, n]⟩ (![1] : Fin 1 → Fin 2)) (k : Fin n) :
    broadcastInDim ⟨2, ![1, n]⟩ ![1] h v (ix2 (0 : Fin 1) k) = v (ix1 k) :=
  broadcastInDim_apply _ h v _ _ fun a => match a with
    | ⟨0, _⟩ => by
      show k.val = if n = 1 then 0 else k.val
      split
      · have := k.isLt; omega
      · rfl

/-- One row broadcast down `m` rows: entry `(r, k)` is the row's entry `k`. -/
theorem rows_of_row_apply {m n : Nat} (v : (⟨2, ![1, n]⟩ : Shape).Idx → α)
    (h : (⟨2, ![1, n]⟩ : Shape).BroadcastsInDim ⟨2, ![m, n]⟩ (![0, 1] : Fin 2 → Fin 2)) (r : Fin m) (k : Fin n) :
    broadcastInDim ⟨2, ![m, n]⟩ ![0, 1] h v (ix2 r k) = v (ix2 (0 : Fin 1) k) :=
  broadcastInDim_apply _ h v _ _ fun a => match a with
    | ⟨0, _⟩ => by
      show (0 : ℕ) = if (1 : ℕ) = 1 then 0 else r.val
      rfl
    | ⟨1, _⟩ => by
      show k.val = if n = 1 then 0 else k.val
      split
      · have := k.isLt; omega
      · rfl

/-! ## A precondition's conjuncts, entry by entry -/

instance : Subsingleton (⟨0, ![]⟩ : Shape).Idx := ⟨fun _ _ => funext fun d => d.elim0⟩

/-- A one-bit word made from a truth value is 1 exactly when the value is true. -/
theorem ofBool_eq_one {b : Bool} : BitVec.ofBool b = 1#1 ↔ b = true := by cases b <;> decide

/-- An extended real whose absolute value is below `+∞` is a real. -/
theorem real_of_abs_lt_inf (x : EReal)
    (h : FloatOps.cmpf (F := Ideal) (φ := .f32) .olt (FloatOps.hostAbsf x) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  have hlt : max x (-x) < ⊤ := by
    have : Ideal.cmp .olt (max x (-x)) ⊤ = 1#1 := h
    simpa [Ideal.cmp, ofBool_eq_one] using this
  induction x using EReal.rec with
  | bot => simp at hlt
  | top => simp at hlt
  | coe r => exact ⟨r, rfl⟩

/-- `jnp.all(|x| < inf)` came out 1: the array is real. -/
theorem isReal_of_all_abs_lt_inf {s : Shape} {axes : List (Fin s.rank)} (x : FVec Ideal s .f32)
    (hb : (⟨0, ![]⟩ : Shape).BroadcastsInDim s (![] : Fin 0 → Fin s.rank)) (hred : s.ReducesTo axes ⟨0, ![]⟩)
    (hu : 0 < (⟨0, ![]⟩ : Shape).numel)
    (h : Host.reduce IntOp.andi (cmpf .olt (Host.absf x) (broadcastInDim s ![] hb (constant (F := Ideal) ⟨0, ![]⟩ .f32 0x7F800000#32)))
        (constantI ⟨0, ![]⟩ 1 1#1) hred hu ix0 = 1#1) : IsReal x := fun i =>
  real_of_abs_lt_inf (x i) (Host.reduce_andi_all _ _ hred hu _ h i)

/-- `jnp.all(v > 0)` over a vector of 100 came out 1: every entry is positive. -/
theorem pos_of_all_gt_zero (v : FVec Ideal ⟨1, ![100]⟩ .f32)
    (hb : (⟨0, ![]⟩ : Shape).BroadcastsInDim ⟨1, ![100]⟩ (![] : Fin 0 → Fin 1)) (hred : (⟨1, ![100]⟩ : Shape).ReducesTo [0] ⟨0, ![]⟩)
    (hu : 0 < (⟨0, ![]⟩ : Shape).numel)
    (h : Host.reduce IntOp.andi (cmpf .ogt v (broadcastInDim ⟨1, ![100]⟩ ![] hb (constant (F := Ideal) ⟨0, ![]⟩ .f32 0x00000000#32)))
        (constantI ⟨0, ![]⟩ 1 1#1) hred hu ix0 = 1#1) (k : Fin 100) : 0 < v (ix1 k) := by
  have h1 := Host.reduce_andi_all _ _ hred hu _ h (ix1 k)
  have h2 : Ideal.cmp .ogt (v (ix1 k)) (Ideal.ofBits .f32 0x00000000#32) = 1#1 := h1
  rw [Ideal.ofBits_zero_f32] at h2
  simpa [Ideal.cmp, ofBool_eq_one] using h2

end Cert.Reads

end
-- ==== Proof.Spec.lean ====
/-
  The column statistics of a [50000, 100] array of extended reals, as plain sums: at column `k` the mean
  `(∑ r, h (r, k)) / 50000`, the unbiased variance `(∑ r, (h (r, k) - mean)²) / 49999` and its square root.
  The reference's result is stated over these; the kernel's is brought to them by the column law.
-/
import Idealize.ShloMosaic.Lib.ValueIdx
import Idealize.ShloMosaic.PureOps.Ideal

noncomputable section

namespace Cert.Norm

open Idealize.ShloMosaic Idealize.ShloMosaic.ValueIdx
open scoped BigOperators

/-- The mean of column `k`. -/
def colMean (h : (⟨2, ![50000, 100]⟩ : Shape).Idx → EReal) (k : Fin 100) : EReal :=
  Ideal.div (∑ r : Fin 50000, h (ix2 r k)) ((50000 : ℝ) : EReal)

/-- The unbiased variance of column `k`: the sum of squared deviations from the mean over `50000 - 1`. -/
def colVar (h : (⟨2, ![50000, 100]⟩ : Shape).Idx → EReal) (k : Fin 100) : EReal :=
  Ideal.div (∑ r : Fin 50000, (h (ix2 r k) - colMean h k) * (h (ix2 r k) - colMean h k)) ((49999 : ℝ) : EReal)

/-- The standard deviation of column `k`. -/
def colStd (h : (⟨2, ![50000, 100]⟩ : Shape).Idx → EReal) (k : Fin 100) : EReal := Ideal.sqrt (colVar h k)

/-- The reference's result at row `p`, output `j`: the standardised row against row `j` of the weights, plus the bias. -/
def refOut (h : (⟨2, ![50000, 100]⟩ : Shape).Idx → EReal) (w : (⟨2, ![40, 100]⟩ : Shape).Idx → EReal)
    (b : (⟨1, ![40]⟩ : Shape).Idx → EReal) (p : Fin 50000) (j : Fin 40) : EReal :=
  (∑ k : Fin 100, Ideal.div (h (ix2 p k) - colMean h k) (colStd h k) * w (ix2 j k)) + b (ix1 j)

end Cert.Norm

end
-- ==== Proof.KernelOut.lean ====
/-
  The kernel's result entry against the specification. The second region computes, at row `p` and output `j`,
  `∑ k, ((x (p, k) - mean (0, k)) · invstd (0, k)) · wT (k, j) + bRow (0, j)`, where the host code between the two regions
  formed `mean = S / 50000` and `invstd = 1 / √((SQ - 50000 · mean · mean) / 49999)` from the first region's column sums
  `S` and column sums of squares `SQ`, transposed the weights and laid the bias out as a row. For a real array `x` whose
  every column has positive variance this is the reference's entry: per column the column law turns the kernel's factor
  into the reference's quotient by the standard deviation; the transposed weight `wT (k, j)` is `w (j, k)`.
-/
import proofs.«112541_j12695923327569_1_alg».proof.Proof.KernelTerms
import proofs.«112541_j12695923327569_1_alg».proof.Proof.Reads
import proofs.«112541_j12695923327569_1_alg».proof.Proof.Spec
import Idealize.ShloMosaic.Lib.ValueLayout

noncomputable section

namespace Cert.KernelIdeal.KernelOut

open Cert.KernelIdeal Cert.KernelIdeal.HandRun Idealize.ShloMosaic Idealize.ShloMosaic.ValueIdx
open Cert.Norm Cert.Reads Cert.RealArrays Cert.ColumnLaw
open scoped BigOperators

/-- The column mean the host code forms, at column `k`. -/
theorem mean_apply (S : FVec Ideal S1x100 .f32) (k : Fin 100) :
    mean S (ix2 (0 : Fin 1) k) = Ideal.div (S (ix2 (0 : Fin 1) k)) ((50000 : ℝ) : EReal) := by
  show Ideal.div (S (ix2 (0 : Fin 1) k)) (Ideal.ofBits .f32 0x47435000#32) = _
  rw [ofBits_50000]

/-- The inverse standard deviation the host code forms, at column `k`. -/
theorem invstd_apply (S SQ : FVec Ideal S1x100 .f32) (k : Fin 100) :
    invstd S SQ (ix2 (0 : Fin 1) k)
      = Ideal.div ((1 : ℝ) : EReal) (Ideal.sqrt (Ideal.div
          (SQ (ix2 (0 : Fin 1) k) - ((50000 : ℝ) : EReal) * mean S (ix2 (0 : Fin 1) k) * mean S (ix2 (0 : Fin 1) k))
          ((49999 : ℝ) : EReal))) := by
  show Ideal.div (Ideal.ofBits .f32 0x3F800000#32) (Ideal.sqrt (Ideal.div
      (SQ (ix2 (0 : Fin 1) k) - Ideal.ofBits .f32 0x47435000#32 * mean S (ix2 (0 : Fin 1) k) * mean S (ix2 (0 : Fin 1) k))
      (Ideal.ofBits .f32 0x47434F00#32))) = _
  rw [ofBits_one, ofBits_50000, ofBits_49999]

/-- The transposed weights at `(k, j)` are the weights at `(j, k)`. -/
theorem wT_apply (a1 : FVec Ideal S40x100 .f32) (k : Fin 100) (j : Fin 40) : wT a1 (ix2 k j) = a1 (ix2 j k) :=
  transpose_ix2_apply a1 _ k j

/-- The bias row at `(0, j)` is the bias at `j`. -/
theorem bRow_apply (a2 : FVec Ideal S40 .f32) (j : Fin 40) : bRow a2 (ix2 (0 : Fin 1) j) = a2 (ix1 j) :=
  shapeCast_a_1a_apply a2 _ 0 j

/-- THE KERNEL'S ENTRY IS THE REFERENCE'S. -/
theorem entry_eq (x : FVec Ideal S50000x100 .f32) (a1 : FVec Ideal S40x100 .f32) (a2 : FVec Ideal S40 .f32)
    (S SQ : FVec Ideal S1x100 .f32)
    (hS : ∀ k : Fin 100, S (ix2 (0 : Fin 1) k) = ∑ r : Fin 50000, x (ix2 r k))
    (hSQ : ∀ k : Fin 100, SQ (ix2 (0 : Fin 1) k) = ∑ r : Fin 50000, x (ix2 r k) * x (ix2 r k))
    (hx : IsReal x) (hpos : ∀ k : Fin 100, 0 < colVar x k) (p : Fin 50000) (j : Fin 40) :
    (∑ k : Fin 100, ((x (ix2 p k) - mean S (ix2 (0 : Fin 1) k)) * invstd S SQ (ix2 (0 : Fin 1) k)) * wT a1 (ix2 k j))
        + bRow a2 (ix2 (0 : Fin 1) j)
      = refOut x a1 a2 p j := by
  unfold refOut
  rw [bRow_apply]
  refine congrArg (· + a2 (ix1 j)) (Finset.sum_congr rfl fun k _ => ?_)
  rw [wT_apply, invstd_apply, mean_apply, hS, hSQ]
  refine congrArg (· * a1 (ix2 j k)) ?_
  exact column_law (fun r => x (ix2 r k)) (fun r => hx _) (hpos k) (x (ix2 p k))

end Cert.KernelIdeal.KernelOut

end
-- ==== Proof.NormReads.lean ====
/-
  The mean and the sum of squared deviations of the columns of a [50000, 100] array, as the host programs compute them,
  read at a column: the column sum from zero over the literal 50000 (as a vector of 100, or kept as one row), and the
  column sum from zero of the squared differences between the array and that mean broadcast down the rows.
-/
import proofs.«112541_j12695923327569_1_alg».proof.Proof.Reads
import proofs.«112541_j12695923327569_1_alg».proof.Proof.Spec

noncomputable section

namespace Cert.NormReads

open Idealize.ShloMosaic Idealize.ShloMosaic.ValueIdx Cert.Norm Cert.Reads Cert.ColumnLaw
open scoped BigOperators

/-- The mean as a vector of 100: the column sum over the literal `50000.0`. -/
theorem mean_vec_apply (H : FVec Ideal ⟨2, ![50000, 100]⟩ .f32)
    (h' : (⟨2, ![50000, 100]⟩ : Shape).ReducesTo [0] ⟨1, ![100]⟩) (hu : 0 < (⟨0, ![]⟩ : Shape).numel)
    (hb : (⟨0, ![]⟩ : Shape).BroadcastsInDim ⟨1, ![100]⟩ (![] : Fin 0 → Fin 1)) (k : Fin 100) :
    Host.divf (Host.reduceAdd H (constant (F := Ideal) ⟨0, ![]⟩ .f32 0x00000000#32) h' hu)
        (broadcastInDim ⟨1, ![100]⟩ ![] hb (constant (F := Ideal) ⟨0, ![]⟩ .f32 0x47435000#32)) (ix1 k)
      = colMean H k := by
  show Ideal.div (Host.reduceAdd H (constant (F := Ideal) ⟨0, ![]⟩ .f32 0x00000000#32) h' hu (ix1 k))
      (Ideal.ofBits .f32 0x47435000#32) = _
  rw [colsum_apply, ofBits_50000]; rfl

/-- The mean kept as one row: the column sum laid out as a row, over the literal `50000.0`. -/
theorem mean_row_apply (H : FVec Ideal ⟨2, ![50000, 100]⟩ .f32)
    (h' : (⟨2, ![50000, 100]⟩ : Shape).ReducesTo [0] ⟨1, ![100]⟩) (hu : 0 < (⟨0, ![]⟩ : Shape).numel)
    (hb1 : (⟨1, ![100]⟩ : Shape).BroadcastsInDim ⟨2, ![1, 100]⟩ (![1] : Fin 1 → Fin 2))
    (hb0 : (⟨0, ![]⟩ : Shape).BroadcastsInDim ⟨2, ![1, 100]⟩ (![] : Fin 0 → Fin 2)) (k : Fin 100) :
    Host.divf (broadcastInDim ⟨2, ![1, 100]⟩ ![1] hb1 (Host.reduceAdd H (constant (F := Ideal) ⟨0, ![]⟩ .f32 0x00000000#32) h' hu))
        (broadcastInDim ⟨2, ![1, 100]⟩ ![] hb0 (constant (F := Ideal) ⟨0, ![]⟩ .f32 0x47435000#32)) (ix2 (0 : Fin 1) k)
      = colMean H k := by
  show Ideal.div (broadcastInDim ⟨2, ![1, 100]⟩ ![1] hb1
        (Host.reduceAdd H (constant (F := Ideal) ⟨0, ![]⟩ .f32 0x00000000#32) h' hu) (ix2 (0 : Fin 1) k))
      (Ideal.ofBits .f32 0x47435000#32) = _
  rw [row_of_vec_apply, colsum_apply, ofBits_50000]; rfl

/-- The array less a row `M` broadcast down the rows, at `(r, k)`. -/
theorem centred_apply (H : FVec Ideal ⟨2, ![50000, 100]⟩ .f32) (M : FVec Ideal ⟨2, ![1, 100]⟩ .f32)
    (hbr : (⟨2, ![1, 100]⟩ : Shape).BroadcastsInDim ⟨2, ![50000, 100]⟩ (![0, 1] : Fin 2 → Fin 2)) (r : Fin 50000) (k : Fin 100) :
    subf H (broadcastInDim ⟨2, ![50000, 100]⟩ ![0, 1] hbr M) (ix2 r k) = H (ix2 r k) - M (ix2 (0 : Fin 1) k) := by
  show H (ix2 r k) - broadcastInDim ⟨2, ![50000, 100]⟩ ![0, 1] hbr M (ix2 r k) = _
  rw [rows_of_row_apply]

/-- The column sum from zero of the squared differences from a row `M` that holds the column means. -/
theorem sqdev_sum_apply (H : FVec Ideal ⟨2, ![50000, 100]⟩ .f32) (M : FVec Ideal ⟨2, ![1, 100]⟩ .f32)
    (hM : ∀ k : Fin 100, M (ix2 (0 : Fin 1) k) = colMean H k)
    (hbr : (⟨2, ![1, 100]⟩ : Shape).BroadcastsInDim ⟨2, ![50000, 100]⟩ (![0, 1] : Fin 2 → Fin 2))
    (h' : (⟨2, ![50000, 100]⟩ : Shape).ReducesTo [0] ⟨1, ![100]⟩) (hu : 0 < (⟨0, ![]⟩ : Shape).numel) (k : Fin 100) :
    Host.reduceAdd (mulf (subf H (broadcastInDim ⟨2, ![50000, 100]⟩ ![0, 1] hbr M))
        (subf H (broadcastInDim ⟨2, ![50000, 100]⟩ ![0, 1] hbr M)))
      (constant (F := Ideal) ⟨0, ![]⟩ .f32 0x00000000#32) h' hu (ix1 k)
      = ∑ r : Fin 50000, (H (ix2 r k) - colMean H k) * (H (ix2 r k) - colMean H k) := by
  rw [colsum_apply]
  refine Finset.sum_congr rfl fun r _ => ?_
  show subf H (broadcastInDim ⟨2, ![50000, 100]⟩ ![0, 1] hbr M) (ix2 r k)
      * subf H (broadcastInDim ⟨2, ![50000, 100]⟩ ![0, 1] hbr M) (ix2 r k) = _
  rw [centred_apply, hM]

end Cert.NormReads

end
-- ==== Proof.PreDecode.lean ====
/-
  What the precondition says. The predicate is the conjunction of four one-bit words: the three float inputs are
  finite everywhere (`all (|x| < +∞)`), and every column variance of the propagated array — the predicate computes that
  array by the programs' own chain of operations — is positive. From "the predicate is 1": the feature array is real,
  and `0 < colVar h k` at every column `k` of `h = prop feat src dst`.
-/
import proofs.«112541_j12695923327569_1_alg».proof.Proof.Gen.Pre_finite_inputs
import proofs.«112541_j12695923327569_1_alg».proof.Proof.KernelTerms
import proofs.«112541_j12695923327569_1_alg».proof.Proof.NormReads

noncomputable section

namespace Cert.PreDecode

open Idealize.ShloMosaic Idealize.ShloMosaic.ValueIdx Cert.Norm Cert.Reads Cert.NormReads Cert.RealArrays Cert.ColumnLaw
open Cert.Pre_finite_inputs Cert.Pre_finite_inputs.Facts
open scoped BigOperators

/-- The predicate's variance chain from the propagated array on: column mean, centred array, its square summed down the
    rows, over the literal `49999.0`. -/
def varOf (H : FVec Ideal S50000x100 .f32) : FVec Ideal S100 .f32 :=
  let v65 : FVec Ideal S100 .f32 := Host.reduceAdd H (constant (F := Ideal) S_ .f32 0x00000000#32) reducesTo_S50000x100_S100_d0 h_S_
  let v67 : FVec Ideal S100 .f32 := Host.divf v65 (broadcastInDim S100 ![] bcast_S_S100 (constant (F := Ideal) S_ .f32 0x47435000#32))
  let v68 : FVec Ideal S1x100 .f32 := broadcastInDim S1x100 ![1] bcast_S100_S1x100_1 v67
  let v70 : FVec Ideal S50000x100 .f32 := subf H (broadcastInDim S50000x100 ![0, 1] bcast_S1x100_S50000x100_0_1 v68)
  let v72 : FVec Ideal S100 .f32 := Host.reduceAdd (mulf v70 v70) (constant (F := Ideal) S_ .f32 0x00000000#32) reducesTo_S50000x100_S100_d0 h_S_
  Host.divf v72 (broadcastInDim S100 ![] bcast_S_S100 (constant (F := Ideal) S_ .f32 0x47434F00#32))

/-- The host's quotient at an index. -/
theorem hostDivf_apply {s : Shape} {φ : FTy} (a b : FVec Ideal s φ) (i : s.Idx) : Host.divf a b i = Ideal.div (a i) (b i) := rfl

/-- That chain at column `k` is the column variance. -/
theorem varOf_apply (H : FVec Ideal S50000x100 .f32) (k : Fin 100) : varOf H (ix1 k) = colVar H k := by
  unfold varOf colVar
  dsimp only
  rw [hostDivf_apply, sqdev_sum_apply H _ (fun k => by rw [row_of_vec_apply, mean_vec_apply])]
  exact congrArg (Ideal.div _) ofBits_49999

/-- "Every entry of `x` is below `+∞` in absolute value", as the predicate computes it. -/
abbrev allFinite {s : Shape} {axes : List (Fin s.rank)} (x : FVec Ideal s .f32)
    (hb : S_.BroadcastsInDim s (![] : Fin 0 → Fin s.rank)) (hred : s.ReducesTo axes S_) : IVec S_ 1 :=
  Host.reduce IntOp.andi (cmpf .olt (Host.absf x) (broadcastInDim s ![] hb (constant (F := Ideal) S_ .f32 0x7F800000#32)))
    (constantI S_ 1 1#1) hred h_S_

/-- The predicate, with the propagated array named by the kernel program's own chain `prop` (the predicate's chain is the
    same operations with the same dimension records). -/
theorem fn_eq (a0 : FVec Ideal S50000x100 .f32) (a1 : FVec Ideal S40x100 .f32) (a2 : FVec Ideal S40 .f32)
    (a3 a4 : IVec S800000 32) :
    Cert.Pre_finite_inputs.fn (F := Ideal) a0 a1 a2 a3 a4
      = andi (andi (andi (allFinite a0 bcast_S_S50000x100 reducesTo_S50000x100_S_d0_1)
            (allFinite a1 bcast_S_S40x100 reducesTo_S40x100_S_d0_1)) (allFinite a2 bcast_S_S40 reducesTo_S40_S_d0))
          (Host.reduce IntOp.andi
            (cmpf .ogt (varOf (Cert.KernelIdeal.HandRun.prop (F := Ideal) a0 a3 a4))
              (broadcastInDim S100 ![] bcast_S_S100 (constant (F := Ideal) S_ .f32 0x00000000#32)))
            (constantI S_ 1 1#1) reducesTo_S100_S_d0 h_S_) := rfl

/-- WHAT THE PRECONDITION GIVES: real features, and a positive variance in every column of the propagated array. -/
theorem decode (a0 : FVec Ideal S50000x100 .f32) (a1 : FVec Ideal S40x100 .f32) (a2 : FVec Ideal S40 .f32)
    (a3 a4 : IVec S800000 32) (h : Cert.Pre_finite_inputs.fn (F := Ideal) a0 a1 a2 a3 a4 = fun _ => 1#1) :
    IsReal a0 ∧ ∀ k : Fin 100, 0 < colVar (Cert.KernelIdeal.HandRun.prop (F := Ideal) a0 a3 a4) k := by
  have h0 := (congrFun (fn_eq a0 a1 a2 a3 a4) ix0).symm.trans (congrFun h ix0)
  obtain ⟨h123, hD⟩ := IntOp.andi_eq_one.1 h0
  obtain ⟨h12, -⟩ := IntOp.andi_eq_one.1 h123
  obtain ⟨hA, -⟩ := IntOp.andi_eq_one.1 h12
  refine ⟨isReal_of_all_abs_lt_inf a0 _ _ _ hA, fun k => ?_⟩
  rw [← varOf_apply]
  exact pos_of_all_gt_zero _ _ _ _ hD k

end Cert.PreDecode

end
-- ==== Proof.PropReal.lean ====
/-
  The propagated array is real when the features are. One hop scales the rows by the inverse root of the in-degree,
  gathers the rows at the edge sources, adds them up at the edge targets and scales again; the in-degree is an
  accumulating scatter of ones, bounded below by one and raised to the power -1/2. Each of these operations takes real
  arrays to real arrays, so one hop does, and so do three. And the two programs' chains are the same operations.
-/
import proofs.«112541_j12695923327569_1_alg».proof.Proof.KernelTerms
import proofs.«112541_j12695923327569_1_alg».proof.Proof.RefTerms
import proofs.«112541_j12695923327569_1_alg».proof.Proof.RealArrays

noncomputable section

namespace Cert.PropReal

open Idealize.ShloMosaic Cert.RealArrays Cert.KernelIdeal Cert.KernelIdeal.HandRun

/-- One step down a chain of operations: the lemma whose operation heads the goal, matched by its name alone. -/
macro "real_step" : tactic =>
  `(tactic| first
    | with_reducible assumption
    | with_reducible exact isReal_zero
    | with_reducible exact isReal_one
    | with_reducible exact isReal_neg_half
    | with_reducible apply isReal_mulf
    | with_reducible apply isReal_maximumf
    | with_reducible apply isReal_powf
    | with_reducible apply isReal_scatterAdd
    | with_reducible apply isReal_gather
    | with_reducible apply isReal_broadcastInDim)

/-- The inverse root of the in-degree is a real array. -/
theorem dinv_real (a4 : IVec S800000 32) : IsReal (dinv (F := Ideal) a4) := by
  unfold dinv
  dsimp only
  repeat' real_step

/-- One hop keeps a real array real. -/
theorem hop_real (a3 a4 : IVec S800000 32) (x : FVec Ideal S50000x100 .f32) (hx : IsReal x) :
    IsReal (hop (F := Ideal) a3 a4 x) := by
  have hd := dinv_real a4
  unfold hop
  dsimp only
  repeat' real_step

/-- Real features propagate to a real array. -/
theorem prop_real (a0 : FVec Ideal S50000x100 .f32) (a3 a4 : IVec S800000 32) (h : IsReal a0) :
    IsReal (prop (F := Ideal) a0 a3 a4) :=
  hop_real _ _ _ (hop_real _ _ _ (hop_real _ _ _ h))

/-- The reference's chain of propagation is the kernel program's. -/
theorem prop_eq (a0 : FVec Ideal S50000x100 .f32) (a3 a4 : IVec S800000 32) :
    Cert.ReferenceIdeal.HandRun.prop (F := Ideal) a0 a3 a4 = prop (F := Ideal) a0 a3 a4 := rfl

end Cert.PropReal

end
-- ==== Proof.RefTail.lean ====
/-
  The reference's result read at an index. From the propagated array `h` the reference forms the column mean, centres the
  array, forms the unbiased variance (the sum of squared deviations over `50000 - 1`; the guard "the divisor is positive"
  holds, so the `select` keeps it), takes the root, divides the centred array by it, contracts the 100 columns against the
  transposed weights and adds the bias to every row. At row `p`, output `j` that is
  `∑ k, ((h (p, k) - mean k) / std k) · w (j, k) + b j`.
-/
import proofs.«112541_j12695923327569_1_alg».proof.Proof.RefTerms
import proofs.«112541_j12695923327569_1_alg».proof.Proof.NormReads
import Idealize.ShloMosaic.Lib.ValueLayout

noncomputable section

namespace Cert.ReferenceIdeal.TailRead

open Cert.ReferenceIdeal Cert.ReferenceIdeal.Gen Cert.ReferenceIdeal.HandRun
open Idealize.ShloMosaic Idealize.ShloMosaic.ValueIdx Cert.Norm Cert.Reads Cert.NormReads Cert.ColumnLaw
open scoped BigOperators

/-- The unbiased divisor `50000.0 - float(1)` is `49999`. -/
theorem divisor_eq : (Ideal.ofBits .f32 0x47435000#32 - (((1#32 : BitVec 32).toInt : ℝ) : EReal)) = ((49999 : ℝ) : EReal) := by
  rw [ofBits_50000]
  have : ((1#32 : BitVec 32).toInt : ℝ) = 1 := by norm_num [BitVec.toInt]
  rw [this, ← EReal.coe_sub]; norm_num

/-- The guard "the divisor is positive" holds. -/
theorem guard_eq : Ideal.cmp .ogt ((49999 : ℝ) : EReal) (Ideal.ofBits .f32 0x00000000#32) = 1#1 := by
  rw [Ideal.ofBits_zero_f32]
  have : (0 : EReal) < ((49999 : ℝ) : EReal) := by exact_mod_cast (by norm_num : (0 : ℝ) < 49999)
  simp [Ideal.cmp, this]

/-- The divisor, broadcast to the 100 columns, is `49999` at every column. -/
theorem divisor_apply (i : S100.Idx) :
    (broadcastInDim S100 ![] bcast_S_S100
      (subf (constant (F := Ideal) S_ .f32 0x47435000#32) (sitofp .f32 (constantI S_ 32 1#32)))) i = ((49999 : ℝ) : EReal) :=
  divisor_eq

/-- The guard, broadcast to the 100 columns, is 1 at every column. -/
theorem guard_apply (i : S100.Idx) :
    (broadcastInDim S100 ![] bcast_S_S100
      (cmpf .ogt (subf (constant (F := Ideal) S_ .f32 0x47435000#32) (sitofp .f32 (constantI S_ 32 1#32)))
        (constant (F := Ideal) S_ .f32 0x00000000#32))) i = 1#1 := by
  show Ideal.cmp .ogt (Ideal.ofBits .f32 0x47435000#32 - (((1#32 : BitVec 32).toInt : ℝ) : EReal))
      (Ideal.ofBits .f32 0x00000000#32) = 1#1
  rw [divisor_eq]; exact guard_eq

/-- The host's root and quotient at an index. -/
theorem hostSqrt_apply {s : Shape} {φ : FTy} (a : FVec Ideal s φ) (i : s.Idx) : Host.sqrt a i = Ideal.sqrt (a i) := rfl
theorem hostDivf_apply {s : Shape} {φ : FTy} (a b : FVec Ideal s φ) (i : s.Idx) : Host.divf a b i = Ideal.div (a i) (b i) := rfl

/-- The product's left index at contraction coordinate `k` is `(p, k)`. -/
theorem lhs_idx (p : Fin 50000) (j : Fin 40) (k : Fin 100) :
    dot_S50000x100_S100x40_S50000x40_1_0_0_1_n_n.lhsIdx (ix2 p j)
        ((contrEquiv1 dot_S50000x100_S100x40_S50000x40_1_0_0_1_n_n 100 rfl rfl).symm k) = ix2 p k := by
  funext a
  refine Fin.ext ?_
  match a with
  | ⟨0, _⟩ => rfl
  | ⟨1, _⟩ =>
    exact (DotDims.lhsIdx_val_of_single (d := dot_S50000x100_S100x40_S50000x40_1_0_0_1_n_n) (cl := 1) rfl _ _).trans
      (contrEquiv1_symm_val dot_S50000x100_S100x40_S50000x40_1_0_0_1_n_n 100 rfl rfl k)

/-- The product's right index at contraction coordinate `k` is `(k, j)`. -/
theorem rhs_idx (p : Fin 50000) (j : Fin 40) (k : Fin 100) :
    dot_S50000x100_S100x40_S50000x40_1_0_0_1_n_n.rhsIdx (ix2 p j)
        ((contrEquiv1 dot_S50000x100_S100x40_S50000x40_1_0_0_1_n_n 100 rfl rfl).symm k) = ix2 k j := by
  funext a
  refine Fin.ext ?_
  match a with
  | ⟨0, _⟩ =>
    exact (DotDims.rhsIdx_val_of_single (d := dot_S50000x100_S100x40_S50000x40_1_0_0_1_n_n) (cr := 0) rfl _ _).trans
      (contrEquiv1_symm_val dot_S50000x100_S100x40_S50000x40_1_0_0_1_n_n 100 rfl rfl k)
  | ⟨1, _⟩ => rfl

/-- THE REFERENCE'S RESULT AT `(p, j)`. -/
theorem tail_apply (h : FVec Ideal S50000x100 .f32) (a1 : FVec Ideal S40x100 .f32) (a2 : FVec Ideal S40 .f32)
    (p : Fin 50000) (j : Fin 40) : tail h a1 a2 (ix2 p j) = refOut h a1 a2 p j := by
  unfold tail refOut
  dsimp only
  -- the bias, broadcast to a row and down the rows
  show (Host.dotGeneral dot_S50000x100_S100x40_S50000x40_1_0_0_1_n_n none _ _) (ix2 p j)
      + broadcastInDim S50000x40 ![0, 1] bcast_S1x40_S50000x40_0_1 (broadcastInDim S1x40 ![1] bcast_S40_S1x40_1 a2) (ix2 p j) = _
  rw [rows_of_row_apply, row_of_vec_apply]
  refine congrArg (· + a2 (ix1 j)) ?_
  -- the contraction over the 100 columns
  show FloatOps.dotGeneral dot_S50000x100_S100x40_S50000x40_1_0_0_1_n_n none .single _ _ (ix2 p j) = _
  rw [Ideal.dotGeneral_apply,
    ← Equiv.sum_comp (contrEquiv1 dot_S50000x100_S100x40_S50000x40_1_0_0_1_n_n 100 rfl rfl).symm]
  refine Finset.sum_congr rfl fun k _ => ?_
  rw [lhs_idx, rhs_idx, transpose_ix2_apply]
  refine congrArg (· * a1 (ix2 j k)) ?_
  -- the standardised entry
  show Ideal.div (subf h _ (ix2 p k)) (broadcastInDim (s := S1x100) S50000x100 ![0, 1] bcast_S1x100_S50000x100_0_1 _ (ix2 p k)) = _
  rw [centred_apply, rows_of_row_apply, row_of_vec_apply, row_of_vec_apply, mean_vec_apply]
  refine congrArg (Ideal.div (h (ix2 p k) - colMean h k)) ?_
  -- the standard deviation: the guard holds, the variance is the sum of squared deviations over 49999
  unfold colStd colVar
  rw [hostSqrt_apply, select_apply, guard_apply, select_one, hostDivf_apply, divisor_apply,
    sqdev_sum_apply h _ (fun k => mean_row_apply h _ _ _ _ k)]

end Cert.ReferenceIdeal.TailRead

end
-- ==== Proof.Bridge.lean ====
/-
  The two programs end with one array. The kernel program's result array is what its second region leaves: at
  `(p, j)` the sum over the 100 columns of `((h (p, k) - mean k) · invstd k) · wT (k, j)` plus the bias, over the arrays the
  region finds on entry — the propagated array `h`, the mean and inverse deviation the host code formed from the first
  region's column sums and column sums of squares, the transposed weights and the bias row. The reference's result is
  `∑ k, ((h (p, k) - mean k) / std k) · w (j, k) + b j` of the same `h`. Under the precondition `h` is real and every column
  variance is positive, and the column law makes the two entries equal.
-/
import proofs.«112541_j12695923327569_1_alg».proof.Proof.KernelRun
import proofs.«112541_j12695923327569_1_alg».proof.Proof.Region0
import proofs.«112541_j12695923327569_1_alg».proof.Proof.Region1
import proofs.«112541_j12695923327569_1_alg».proof.Proof.KernelOut
import proofs.«112541_j12695923327569_1_alg».proof.Proof.PreDecode
import proofs.«112541_j12695923327569_1_alg».proof.Proof.PropReal
import proofs.«112541_j12695923327569_1_alg».proof.Proof.RefTail

noncomputable section

namespace Cert.Bridge

open Cert.KernelIdeal Idealize.ShloMosaic Idealize.ShloMosaic.ValueIdx Idealize.ShloMosaic.TcCoe Idealize.SL.Sem
open scoped BigOperators

/-- The kernel program's result array is the reference's result term of the launch arguments. -/
theorem result_eq (m : (ℓ : Loc nD τ sig) → Buf (Elt Ideal) ℓ) (ρ : Dev nD → PrngReg) (c : Dev nD)
    (hpre : Cert.Pre_finite_inputs.fn (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) = fun _ => 1#1) :
    (Gen.dat1 (Gen.V3 m ρ) c).arrAt 5 cfg1.N
      = Cert.ReferenceIdeal.HandRun.tail (F := Ideal)
          (Cert.ReferenceIdeal.HandRun.prop (F := Ideal) (m ((c.tc : Thread nD τ).loc main_arg0))
            (m ((c.tc : Thread nD τ).loc main_arg3)) (m ((c.tc : Thread nD τ).loc main_arg4)))
          (m ((c.tc : Thread nD τ).loc main_arg1)) (m ((c.tc : Thread nD τ).loc main_arg2)) := by
  obtain ⟨hreal, hpos⟩ := Cert.PreDecode.decode _ _ _ _ _ hpre
  rw [Cert.KernelIdeal.Region1.out_eq (Gen.V3 m ρ) c, Cert.KernelIdeal.HandRun.V3_prop, Cert.KernelIdeal.HandRun.V3_mean,
    Cert.KernelIdeal.HandRun.V3_invstd, Cert.KernelIdeal.HandRun.V3_wT, Cert.KernelIdeal.HandRun.V3_bRow,
    Cert.KernelIdeal.Region0.sum_eq (Gen.V1 m ρ) c, Cert.KernelIdeal.Region0.sumsq_eq (Gen.V1 m ρ) c,
    Cert.KernelIdeal.HandRun.V1_h, Cert.PropReal.prop_eq]
  funext i
  obtain ⟨p, j, rfl⟩ : ∃ (p : Fin 50000) (j : Fin 40), i = ix2 p j := ⟨i 0, i 1, eq_ix2 i⟩
  rw [Cert.ReferenceIdeal.TailRead.tail_apply, Cert.KernelIdeal.Region1.G_apply]
  exact Cert.KernelIdeal.KernelOut.entry_eq _ _ _ _ _
    (fun k => Cert.KernelIdeal.Region0.colSum_apply _ (ix2 (0 : Fin 1) k))
    (fun k => Cert.KernelIdeal.Region0.colSumSq_apply _ (ix2 (0 : Fin 1) k))
    (Cert.PropReal.prop_real _ _ _ hreal) hpos p j

end Cert.Bridge

end
-- ==== Proof.lean ====
/-
  The certificate of the graph-propagation classifier: three hops of degree-normalised neighbourhood sums, then a
  per-feature standardisation and a linear layer. Both programs compute the propagated array `h` by the same host
  operations. The kernel program then takes the column sums and column sums of squares of `h` in one tiled pass, forms
  mean and inverse deviation on the host, and in a second tiled pass standardises each row tile and multiplies it by the
  transposed weights; the reference standardises by `(h - mean) / std` with the unbiased deviation and takes the product
  with the weights. The claim is stated where the reference is defined: every feature column of `h` has a nonzero
  deviation (at a constant column the reference is `0 / 0`).

  The frames of the two kernel programs are the generated ones; the reference's frame is its run with the result
  dropped. No operation was rewritten by the idealisation, so the idealised kernel program is the kernel program's own
  text read over the extended reals. For the value claim, both runs end with the same array: the reference's result term of
  the launch arguments (the kernel's array equals it by Proof/Bridge.lean).
-/
import proofs.«112541_j12695923327569_1_alg».proof.Defs
import proofs.«112541_j12695923327569_1_alg».proof.Proof.Gen.Kernel
import proofs.«112541_j12695923327569_1_alg».proof.Proof.Gen.Kernel.Frame
import proofs.«112541_j12695923327569_1_alg».proof.Proof.Gen.KernelIdeal
import proofs.«112541_j12695923327569_1_alg».proof.Proof.Gen.KernelIdeal.Frame
import proofs.«112541_j12695923327569_1_alg».proof.Proof.Gen.ReferenceIdeal
import proofs.«112541_j12695923327569_1_alg».proof.Proof.Gen.Pre_finite_inputs
import proofs.«112541_j12695923327569_1_alg».proof.Proof.KernelRun
import proofs.«112541_j12695923327569_1_alg».proof.Proof.RefRun
import proofs.«112541_j12695923327569_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched (the generated frame). -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run, the result forgotten. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.HandRun.run (F := Ideal) m ρ)

/-- From memories that agree on the arguments both programs end with the reference's result term of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Gen.dat1 (Cert.KernelIdeal.Gen.V3 m ρ) c).arrAt 5 Cert.KernelIdeal.cfg1.N,
    Cert.KernelIdeal.HandRun.run_result (F := Ideal) m ρ, ?_⟩
  refine (θ_run (Cert.ReferenceIdeal.defs (F := Ideal)) _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  exact (Cert.Bridge.result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
